-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S4096 : Shape := ⟨1, ![4096]⟩
abbrev S1000x4096 : Shape := ⟨2, ![1000, 4096]⟩
abbrev S1000 : Shape := ⟨1, ![1000]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_
  bcast_S_S1000x4096 : S_.BroadcastsInDim S1000x4096 (![] : Fin 0 → Fin S1000x4096.rank)
  reducesTo_S1000x4096_S_d0_1 : S1000x4096.ReducesTo [0, 1] S_
  bcast_S_S1000 : S_.BroadcastsInDim S1000 (![] : Fin 0 → Fin S1000.rank)
  reducesTo_S1000_S_d0 : S1000.ReducesTo [0] S_

variable [Facts]

def fn_part1 {F : FTy → Type} [FloatOps F] (main_arg4 : FVec F S1000 .f32) (main_v13 : IVec S_ 1) (main_v16 : IVec S1000x4096 1) : IVec S_ 1 :=
  let main_c_5 : IVec S_ 1 := constantI S_ 1 1#1
  let main_v17 : IVec S_ 1 := (fun x v => Host.reduce IntOp.andi x v reducesTo_S1000x4096_S_d0_1 h_S_) main_v16 main_c_5
  let main_v18 : IVec S_ 1 := andi main_v13 main_v17
  let main_v19 : FVec F S1000 .f32 := Host.absf main_arg4
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  main_v23

def fn {F : FTy → Type} [FloatOps F] (main_arg0 : FVec F S8192x2048 .f32) (main_arg1 : FVec F S4096x2048 .f32) (main_arg2 : FVec F S4096 .f32) (main_arg3 : FVec F S1000x4096 .f32) (main_arg4 : FVec F S1000 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1000x4096 .f32 := Host.absf main_arg3
  let main_cst_4 : FVec F S_ .f32 := constant S_ .f32 0x7F800000#32
  let main_v15 : FVec F S1000x4096 .f32 := broadcastInDim S1000x4096 ![] bcast_S_S1000x4096 main_cst_4
  let main_v16 : IVec S1000x4096 1 := cmpf .olt main_v14 main_v15
  fn_part1 (F := F) main_arg4 main_v13 main_v16
-- ==== Kernel.lean ====
abbrev S8192x2048 : Shape := ⟨2, ![8192, 2048]⟩
abbrev S4096x2048 : Shape := ⟨2, ![4096, 2048]⟩
abbrev S4096 : Shape := ⟨1, ![4096]⟩
abbrev S1000x4096 : Shape := ⟨2, ![1000, 4096]⟩
abbrev S1000 : Shape := ⟨1, ![1000]⟩
abbrev S_ : Shape := ⟨0, ![]⟩
abbrev S1x4096 : Shape := ⟨2, ![1, 4096]⟩
abbrev S1024x4096 : Shape := ⟨2, ![1024, 4096]⟩
abbrev S1024 : Shape := ⟨1, ![1024]⟩
abbrev S1x1024 : Shape := ⟨2, ![1, 1024]⟩
abbrev S8192 : Shape := ⟨1, ![8192]⟩
abbrev S8192x1 : Shape := ⟨2, ![8192, 1]⟩
abbrev S8192x1024 : Shape := ⟨2, ![8192, 1024]⟩
abbrev S1024x2048 : Shape := ⟨2, ![1024, 2048]⟩
abbrev S1024x1 : Shape := ⟨2, ![1024, 1]⟩
abbrev S256x2048 : Shape := ⟨2, ![256, 2048]⟩
abbrev S1x256 : Shape := ⟨2, ![1, 256]⟩
abbrev S1024x256 : Shape := ⟨2, ![1024, 256]⟩
abbrev S1024x1024 : Shape := ⟨2, ![1024, 1024]⟩
abbrev S8192x1000 : Shape := ⟨2, ![8192, 1000]⟩

abbrev nBuf : Space → Nat
  | .hbm => 26
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S1000x4096, .f32⟩
  | .hbm, ⟨4, _⟩ => ⟨S1000, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S1x4096, .f32⟩
  | .hbm, ⟨9, _⟩ => ⟨S1x4096, .f32⟩
  | .hbm, ⟨10, _⟩ => ⟨S4096x2048, .bf16⟩
  | .hbm, ⟨11, _⟩ => ⟨S_, .i32⟩
  | .hbm, ⟨12, _⟩ => ⟨S_, .f32⟩
  | .hbm, ⟨13, _⟩ => ⟨S1024x4096, .f32⟩
  | .hbm, ⟨14, _⟩ => ⟨S_, .i32⟩
  | .hbm, ⟨15, _⟩ => ⟨S_, .f32⟩
  | .hbm, ⟨16, _⟩ => ⟨S1024, .f32⟩
  | .hbm, ⟨17, _⟩ => ⟨S1024x4096, .bf16⟩
  | .hbm, ⟨18, _⟩ => ⟨S1x1024, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S8192x2048, .bf16⟩
  | .hbm, ⟨24, _⟩ => ⟨S8192x1024, .f32⟩
  | .hbm, ⟨25, _⟩ => ⟨S8192x1000, .f32⟩
  | .local _ .vmem, ⟨0, _⟩ => ⟨S1024x2048, .bf16⟩
  | .local _ .vmem, ⟨1, _⟩ => ⟨S1024x2048, .bf16⟩
  | .local _ .vmem, ⟨2, _⟩ => ⟨S1024x1, .f32⟩
  | .local _ .vmem, ⟨3, _⟩ => ⟨S1024x1, .f32⟩
  | .local _ .vmem, ⟨4, _⟩ => ⟨S256x2048, .bf16⟩
  | .local _ .vmem, ⟨5, _⟩ => ⟨S256x2048, .bf16⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1024x256, .bf16⟩
  | .local _ .vmem, ⟨11, _⟩ => ⟨S1024x256, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | .local _ .vmem, ⟨16, _⟩ => ⟨S1024x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_c_0 : Ref sig .tc := ⟨.hbm, 14, rfl⟩
abbrev main_call1_v0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v44 : BitVec 1 := Scalar.cmpi .eq arg1 c15_i32
  let v45 : BitVec 32 := Scalar.extui v44
  let c0_i32_25 : BitVec 32 := 0#32
  let v46 : BitVec 1 := Scalar.cmpi .ne v45 c0_i32_25
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  reducesTo_S4096x2048_S4096_d1 : S4096x2048.ReducesTo [1] S4096
  h_S_ : 0 < S_.numel
  shapeCasts_S4096_S1x4096 : S4096.ShapeCasts S1x4096
  bitsLt_bf16_f32 : FTy.bits .bf16 < FTy.bits .f32
  pads_S1000x4096_S1024x4096_0240_000 : S1000x4096.Pads (![0, 0] : Fin 2 → Nat) ![24, 0] ![0, 0] S1024x4096
  pads_S1000_S1024_0240 : S1000.Pads (![0] : Fin 1 → Nat) ![24] ![0] S1024
  shapeCasts_S1024_S1x1024 : S1024.ShapeCasts S1x1024
  reducesTo_S8192x2048_S8192_d1 : S8192x2048.ReducesTo [1] S8192
  bcast_S8192_S8192x1_0 : S8192.BroadcastsInDim S8192x1 (![0] : Fin 1 → Fin S8192x1.rank)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1024x1_S1024x256 : S1024x1.Broadcasts S1024x256
  broadcasts_S1x256_S1024x256 : S1x256.Broadcasts S1024x256
  reduces_S1024x256_S1024 : S1024x256.Reduces [1] S1024
  shapeCasts_S1024_S1024x1 : S1024.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  broadcasts_S1024x1_S1024x1024 : S1024x1.Broadcasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S8192x1024_S8192x1000_0_0 : S8192x1024.Slices ![0, 0] S8192x1000
  dot_S1024x2048_S256x2048_S1024x256_1_1_0_0_n_n_wf : DotDims.WF S1024x2048 S256x2048 S1024x256 [1] [1] [0] [0] [] []
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .bf16 = 32 ∨ (Rect.block (s := S4096x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x4096.size a
  hwx0_3 : ∀ i : grid0.Coords, EltTy.bits .f32 = 32 ∨ (Rect.block (s := S1x4096) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x4096.size a
  hwx0_4 : ∀ i : grid0.Coords, EltTy.bits .f32 = 32 ∨ (Rect.block (s := S1x4096) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S1024x4096.size a
  hwx0_5 : ∀ i : grid0.Coords, EltTy.bits .bf16 = 32 ∨ (Rect.block (s := S1024x4096) S1024x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x1024.size a
  hwx0_7 : ∀ i : grid0.Coords, EltTy.bits .f32 = 32 ∨ (Rect.block (s := S8192x1024) S1024x1024.size (cc0_transform_7 i) (hinb0_7 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v12) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8192x2048 : Shape := ⟨2, ![8192, 2048]⟩
abbrev S4096x2048 : Shape := ⟨2, ![4096, 2048]⟩
abbrev S4096 : Shape := ⟨1, ![4096]⟩
abbrev S1000x4096 : Shape := ⟨2, ![1000, 4096]⟩
abbrev S1000 : Shape := ⟨1, ![1000]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S8192x4096 : Shape := ⟨2, ![8192, 4096]⟩
abbrev S2048x4096 : Shape := ⟨2, ![2048, 4096]⟩
abbrev S4096x1000 : Shape := ⟨2, ![4096, 1000]⟩
abbrev S8192x1000 : Shape := ⟨2, ![8192, 1000]⟩
abbrev S1x1000 : Shape := ⟨2, ![1, 1000]⟩

abbrev nBuf : Space → Nat
  | .hbm => 41
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S1000x4096, .f32⟩
  | .hbm, ⟨4, _⟩ => ⟨S1000, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S1x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S2048x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S1x4096, .f32⟩
  | .hbm, ⟨27, _⟩ => ⟨S1x4096, .f32⟩
  | .hbm, ⟨28, _⟩ => ⟨S8192x4096, .f32⟩
  | .hbm, ⟨29, _⟩ => ⟨S8192x4096, .f32⟩
  | .hbm, ⟨30, _⟩ => ⟨S8192x4096, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S8192x4096, .f32⟩
  | .hbm, ⟨35, _⟩ => ⟨S8192x4096, .f32⟩
  | .hbm, ⟨36, _⟩ => ⟨S4096x1000, .f32⟩
  | .hbm, ⟨37, _⟩ => ⟨S8192x1000, .f32⟩
  | .hbm, ⟨38, _⟩ => ⟨S1x1000, .f32⟩
  | .hbm, ⟨39, _⟩ => ⟨S8192x1000, .f32⟩
  | .hbm, ⟨40, _⟩ => ⟨S8192x1000, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  reducesTo_S4096x2048_S4096_d1 : S4096x2048.ReducesTo [1] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  transposes_S4096x2048_S2048x4096_1_0 : S4096x2048.Transposes [1, 0] S2048x4096
  bcast_S_S8192x4096 : S_.BroadcastsInDim S8192x4096 (![] : Fin 0 → Fin S8192x4096.rank)
  reducesTo_S8192x4096_S8192_d1 : S8192x4096.ReducesTo [1] S8192
  transposes_S1000x4096_S4096x1000_1_0 : S1000x4096.Transposes [1, 0] S4096x1000
  bcast_S1000_S1x1000_1 : S1000.BroadcastsInDim S1x1000 (![1] : Fin 1 → Fin S1x1000.rank)
  bcast_S1x1000_S8192x1000_0_1 : S1x1000.BroadcastsInDim S8192x1000 (![0, 1] : Fin 2 → Fin S8192x1000.rank)
  dot_S8192x2048_S2048x4096_S8192x4096_1_0_0_1_n_n_wf : DotDims.WF S8192x2048 S2048x4096 S8192x4096 [1] [0] [0] [1] [] []
  dot_S8192x4096_S4096x1000_S8192x1000_1_0_0_1_n_n_wf : DotDims.WF S8192x4096 S4096x1000 S8192x1000 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf
def dot_S8192x4096_S4096x1000_S8192x1000_1_0_0_1_n_n : DotDims S8192x4096 S4096x1000 S8192x1000 where
  lhsContracting := [1]
  rhsContracting := [0]
  lhsNonContracting := [0]
  rhsNonContracting := [1]
  lhsBatch := []
  rhsBatch := []
  wf := dot_S8192x4096_S4096x1000_S8192x1000_1_0_0_1_n_n_wf

class Facts : Prop extends Facts₀ where

variable [Facts]
-- ==== Proof.Law.lean ====
/-
  The extended-real algebra behind a normalized radial-basis head.

  Writing `a c ≥ 0` for the activations of one batch row and `d = ∑ c, a c` for their total, the kernel forms
  `(∑ c, a c * w c) / d` (one division after the contraction) while the reference forms `∑ c, (a c / d) * w c`
  (each activation normalized first).  On the extended reals the two agree as soon as `0 ≤ d` and `d ≠ 0`: the
  quotient is then the product with `d⁻¹`, a nonnegative real, and multiplication by a nonnegative real
  distributes over every sum of extended reals, infinite terms included (`div_sum`).  The total is positive because
  every activation is an exponential of a finite number, hence a positive real (`exp_pos_of_finite`,
  `sum_pos_of_pos`).  The rest of this file says that finiteness is kept by the operations the distance is made
  of, and that a sum over 4096 centers is the sum of its sixteen tiles of 256.
-/
import Idealize.ShloMosaic.PureOps.Ideal
import Idealize.ShloMosaic.PureOps.Ideal.Laws

noncomputable section

open scoped BigOperators
open Idealize.ShloMosaic

namespace Cert.RbfLaw

/-- An extended real that is an ordinary real number. -/
def Fin' (x : EReal) : Prop := ∃ r : ℝ, x = (r : EReal)

theorem Fin'.zero : Fin' 0 := ⟨0, rfl⟩
theorem Fin'.coe (r : ℝ) : Fin' (r : EReal) := ⟨r, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.neg {x : EReal} (hx : Fin' x) : Fin' (-x) := by
  obtain ⟨a, rfl⟩ := hx; exact ⟨-a, (EReal.coe_neg a).symm⟩
theorem Fin'.sup {x y : EReal} (hx : Fin' x) (hy : Fin' y) : Fin' (max x y) := by
  rcases max_choice x y with h | h <;> rw [h] <;> assumption
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- The square root of a finite number clamped at zero is finite (the clamp keeps it off the negative corner). -/
theorem Fin'.sqrt_max_zero {x : EReal} (hx : Fin' x) : Fin' (Ideal.sqrt (max x 0)) := by
  obtain ⟨a, rfl⟩ := hx
  have : max ((a : EReal)) 0 = ((max a 0 : ℝ) : EReal) := by
    rw [← EReal.coe_zero]; exact (EReal.coe_strictMono.monotone.map_max (a := a) (b := 0)).symm
  rw [this]
  show Fin' (if max a 0 < 0 then ⊥ else ((Real.sqrt (max a 0) : ℝ) : EReal))
  rw [if_neg (not_lt.2 (le_max_right a 0))]
  exact ⟨_, rfl⟩

/-- The exponential is nowhere negative: `0` at `-∞`, `+∞` at `+∞`, a positive real between. -/
theorem exp_nonneg (x : EReal) : 0 ≤ Ideal.exp x := by
  induction x using EReal.rec with
  | bot => exact le_rfl
  | coe r => exact EReal.coe_nonneg.2 (Real.exp_pos r).le
  | top => exact le_top

/-- At a finite argument it is a positive real. -/
theorem exp_pos_of_finite {x : EReal} (hx : Fin' x) : 0 < Ideal.exp x := by
  obtain ⟨a, rfl⟩ := hx
  exact EReal.coe_pos.2 (Real.exp_pos a)

/-- A sum of nonnegative extended reals with one positive term is positive. -/
theorem sum_pos_of_pos {ι : Type*} [Fintype ι] (a : ι → EReal) (h0 : ∀ c, 0 ≤ a c) (c0 : ι) (hc : 0 < a c0) :
    0 < ∑ c, a c :=
  lt_of_lt_of_le hc (Finset.single_le_sum (fun i _ => h0 i) (Finset.mem_univ c0))

theorem sum_nonneg' {ι : Type*} [Fintype ι] (a : ι → EReal) (h0 : ∀ c, 0 ≤ a c) : 0 ≤ ∑ c, a c :=
  Finset.sum_nonneg fun i _ => h0 i

/-- Multiplication by a nonnegative real distributes over any finite sum of extended reals. -/
theorem mul_sum_of_nonneg {ι : Type*} (i : EReal) (h0 : 0 ≤ i) (ht : i ≠ ⊤) (s : Finset ι) (f : ι → EReal) :
    i * ∑ c ∈ s, f c = ∑ c ∈ s, i * f c := by
  classical
  induction s using Finset.induction_on with
  | empty => simp
  | insert a s ha ih =>
    rw [Finset.sum_insert ha, Finset.sum_insert ha, EReal.left_distrib_of_nonneg_of_ne_top h0 ht, ih]

/-- THE LAW: dividing the weighted sum once by a positive total is normalizing each weight first. -/
theorem div_sum {ι : Type*} [Fintype ι] (a w : ι → EReal) (d : EReal) (hd0 : 0 ≤ d) (hd : d ≠ 0) :
    Ideal.div (∑ c, a c * w c) d = ∑ c, Ideal.div (a c) d * w c := by
  unfold Ideal.div
  simp only [if_neg hd]
  rw [mul_comm, mul_sum_of_nonneg _ (EReal.inv_nonneg_of_nonneg hd0) (EReal.inv_lt_top d).ne]
  refine Finset.sum_congr rfl fun c _ => ?_
  rw [← mul_assoc, mul_comm d⁻¹ (a c)]

/-! ## A sum over 4096 centers, tile by tile -/

/-- Center `q` of tile `j` (taken modulo the extent, so that the definition needs no side condition). -/
def colOf (j : ℕ) (q : Fin 256) : Fin 4096 := ⟨(256 * j + q.val) % 4096, Nat.mod_lt _ (by decide)⟩

/-- Row `p` of batch block `i`, likewise. -/
def rowOf (i : ℕ) (p : Fin 1024) : Fin 8192 := ⟨(1024 * i + p.val) % 8192, Nat.mod_lt _ (by decide)⟩

theorem colOf_val {j : ℕ} (hj : j < 16) (q : Fin 256) : (colOf j q).val = 256 * j + q.val := by
  have := q.isLt
  show (256 * j + q.val) % 4096 = _
  omega

theorem rowOf_val {i : ℕ} (hi : i < 8) (p : Fin 1024) : (rowOf i p).val = 1024 * i + p.val := by
  have := p.isLt
  show (1024 * i + p.val) % 8192 = _
  omega

/-- The sixteen tiles of 256 centers are the 4096 centers. -/
def tileEquiv : Fin 16 × Fin 256 ≃ Fin 4096 where
  toFun p := colOf p.1.val p.2
  invFun c := (⟨c.val / 256, by have := c.isLt; omega⟩, ⟨c.val % 256, Nat.mod_lt _ (by decide)⟩)
  left_inv p := by
    obtain ⟨j, q⟩ := p
    have hj := j.isLt; have hq := q.isLt
    refine Prod.ext (Fin.ext ?_) (Fin.ext ?_)
    · show (colOf j.val q).val / 256 = j.val
      rw [colOf_val hj]; omega
    · show (colOf j.val q).val % 256 = q.val
      rw [colOf_val hj]; omega
  right_inv c := by
    have hc := c.isLt
    apply Fin.ext
    show (256 * (c.val / 256) + c.val % 256) % 4096 = c.val
    omega

theorem sum_tiles {M : Type*} [AddCommMonoid M] (f : Fin 4096 → M) :
    ∑ j ∈ Finset.range 16, ∑ q : Fin 256, f (colOf j q) = ∑ c : Fin 4096, f c := by
  rw [Finset.sum_range (fun j => ∑ q : Fin 256, f (colOf j q)), ← Fintype.sum_prod_type']
  exact Fintype.sum_equiv tileEquiv _ _ fun p => rfl

end Cert.RbfLaw
-- ==== Proof.Spec.lean ====
/-
  The function both programs compute, over the extended reals.

  For a batch row `b` and a center `c`: the squared distance by the Gram identity
  `‖x_b‖² + ‖μ_c‖² - 2·⟨x_b, μ_c⟩`, clamped at zero; the activation `exp(-β_c · √·)`; the total `∑_c` of a
  row's activations; and the head, `∑_c (act b c / total b) · W k c + bias k` — the reference's order of
  operations (`out`).  The kernel instead contracts the unnormalized activations tile by tile and divides
  once (`kernel_form`); the two agree when the inputs are finite, because every activation is then a positive
  real and so is their total (Law.lean).
-/
import Idealize.ShloMosaic.PureOps.Ideal
import Idealize.ShloMosaic.Lib.ValueIdx
import proofs.«128381_j64226940944944_2_alg».proof.Proof.Law

noncomputable section

open scoped BigOperators
open Idealize.ShloMosaic Idealize.ShloMosaic.ValueIdx Cert.RbfLaw

namespace Cert.Rbf

abbrev SX : Shape := ⟨2, ![8192, 2048]⟩
abbrev SC : Shape := ⟨2, ![4096, 2048]⟩
abbrev SB : Shape := ⟨1, ![4096]⟩
abbrev SW : Shape := ⟨2, ![1000, 4096]⟩
abbrev SBias : Shape := ⟨1, ![1000]⟩
abbrev SO : Shape := ⟨2, ![8192, 1000]⟩

/-- The literal `2.0`, kept as its bit pattern: both programs spell the same word. -/
def two : EReal := Ideal.ofBits .f32 0x40000000#32

section
variable (x : SX.Idx → EReal) (cen : SC.Idx → EReal) (β : SB.Idx → EReal) (W : SW.Idx → EReal)
  (bias : SBias.Idx → EReal)

/-- `‖x_b‖²`, as a sum from zero. -/
def xsq (b : Fin 8192) : EReal := 0 + ∑ k : Fin 2048, x (ix2 b k) * x (ix2 b k)
/-- `‖μ_c‖²`. -/
def csq (c : Fin 4096) : EReal := 0 + ∑ k : Fin 2048, cen (ix2 c k) * cen (ix2 c k)
/-- `⟨x_b, μ_c⟩`. -/
def dot (b : Fin 8192) (c : Fin 4096) : EReal := ∑ k : Fin 2048, x (ix2 b k) * cen (ix2 c k)
/-- The squared distance by the Gram identity. -/
def sqd (b : Fin 8192) (c : Fin 4096) : EReal := (xsq x b + csq cen c) - two * dot x cen b c
/-- The activation of center `c` on row `b`. -/
def act (b : Fin 8192) (c : Fin 4096) : EReal := Ideal.exp (-(β (ix1 c)) * Ideal.sqrt (max (sqd x cen b c) 0))
/-- The row's total activation. -/
def den (b : Fin 8192) : EReal := ∑ c : Fin 4096, act x cen β b c
/-- The head on normalized activations (the reference's order). -/
def out : SO.Idx → EReal := fun i =>
  (∑ c : Fin 4096, Ideal.div (act x cen β (i 0) c) (0 + den x cen β (i 0)) * W (ix2 (i 1) c)) + bias (ix1 (i 1))

theorem two_finite : Fin' two := by
  refine ⟨2, ?_⟩
  unfold two
  simp [Ideal.ofBits, Ideal.ieee, -EReal.coe_mul]
  norm_num

variable {x cen β}

theorem sqd_finite (hx : ∀ j, Fin' (x j)) (hc : ∀ j, Fin' (cen j)) (b : Fin 8192) (c : Fin 4096) :
    Fin' (sqd x cen b c) :=
  ((Fin'.zero.add (Fin'.sum _ _ fun k _ => (hx _).mul (hx _))).add
    (Fin'.zero.add (Fin'.sum _ _ fun k _ => (hc _).mul (hc _)))).sub
    (two_finite.mul (Fin'.sum _ _ fun k _ => (hx _).mul (hc _)))

theorem act_pos (hx : ∀ j, Fin' (x j)) (hc : ∀ j, Fin' (cen j)) (hβ : ∀ j, Fin' (β j)) (b : Fin 8192) (c : Fin 4096) :
    0 < act x cen β b c :=
  exp_pos_of_finite ((hβ _).neg.mul (sqd_finite hx hc b c).sqrt_max_zero)

theorem act_nonneg (b : Fin 8192) (c : Fin 4096) : 0 ≤ act x cen β b c := exp_nonneg _

theorem den_nonneg (b : Fin 8192) : 0 ≤ den x cen β b := sum_nonneg' _ fun c => act_nonneg b c

theorem den_pos (hx : ∀ j, Fin' (x j)) (hc : ∀ j, Fin' (cen j)) (hβ : ∀ j, Fin' (β j)) (b : Fin 8192) :
    0 < den x cen β b :=
  sum_pos_of_pos _ (fun c => act_nonneg b c) ⟨0, by decide⟩ (act_pos hx hc hβ b _)

/-- The kernel's order — the unnormalized activations contracted tile by tile, their total accumulated tile by
    tile, ONE division at the end — gives the reference's value when the inputs are finite. -/
theorem kernel_form (hx : ∀ j, Fin' (x j)) (hc : ∀ j, Fin' (cen j)) (hβ : ∀ j, Fin' (β j)) (i : SO.Idx) :
    Ideal.div (∑ j ∈ Finset.range 16, ∑ q : Fin 256, act x cen β (i 0) (colOf j q) * W (ix2 (i 1) (colOf j q)))
        (∑ j ∈ Finset.range 16, ∑ q : Fin 256, act x cen β (i 0) (colOf j q)) + bias (ix1 (i 1))
      = out x cen β W bias i := by
  rw [sum_tiles (fun c => act x cen β (i 0) c * W (ix2 (i 1) c)), sum_tiles (fun c => act x cen β (i 0) c)]
  unfold out
  rw [zero_add]
  show Ideal.div _ (den x cen β (i 0)) + _ = _
  rw [div_sum _ _ _ (den_nonneg (i 0)) (den_pos hx hc hβ (i 0)).ne']

end

end Cert.Rbf
-- ==== Proof.RefIsOut.lean ====
/-
  The reference, read one operation at a time, is `Cert.Rbf.out`: the row norms and the Gram product are the
  sums of Spec.lean at the same indices, the clamp, root, negation, exponential and quotient are the same
  functions of the extended reals on the host as in the specification, and the last contraction runs over the
  centers with the weight matrix read transposed.
-/
import proofs.«128381_j64226940944944_2_alg».proof.Proof.Gen.ReferenceIdeal.Read
import proofs.«128381_j64226940944944_2_alg».proof.Proof.Spec

noncomputable section

open scoped BigOperators
open Idealize.ShloMosaic Idealize.ShloMosaic.ValueIdx

namespace Cert.ReferenceIdeal.RbfRef

open Cert.ReferenceIdeal Cert.ReferenceIdeal.Read

/-! ## The reference's composed index functions, as coordinates -/

theorem ix_row (b : Fin 8192) (k : Fin 1000) (c : Fin 4096) :
    lidx_main_v27 (ix2 b k) c = (ix2 b c : S8192x4096.Idx) :=
  funext fun a => Fin.ext (by match a with | ⟨0, _⟩ => rfl | ⟨1, _⟩ => rfl)
theorem ix_w (b : Fin 8192) (k : Fin 1000) (c : Fin 4096) :
    idx_main_v26 (ridx_main_v27 (ix2 b k) c) = (ix2 k c : S1000x4096.Idx) :=
  funext fun a => Fin.ext (by match a with | ⟨0, _⟩ => rfl | ⟨1, _⟩ => rfl)
theorem ix_bias (b : Fin 8192) (k : Fin 1000) : idx_main_v28 (idx_main_v29 (ix2 b k)) = (ix1 k : S1000.Idx) :=
  funext fun a => Fin.ext (by match a with | ⟨0, _⟩ => rfl)
theorem ix_beta (b : Fin 8192) (c : Fin 4096) : idx_main_v17 (idx_main_v19 (ix2 b c)) = (ix1 c : S4096.Idx) :=
  funext fun a => Fin.ext (by match a with | ⟨0, _⟩ => rfl)
theorem ix_xsq (b : Fin 8192) (c : Fin 4096) (k : Fin 2048) :
    idx_main_v1 (idx_main_v2 (idx_main_v6 (ix2 b c))) k = (ix2 b k : S8192x2048.Idx) :=
  funext fun a => Fin.ext (by match a with | ⟨0, _⟩ => rfl | ⟨1, _⟩ => rfl)
theorem ix_csq (b : Fin 8192) (c : Fin 4096) (k : Fin 2048) :
    idx_main_v4 (idx_main_v5 (idx_main_v7 (ix2 b c))) k = (ix2 c k : S4096x2048.Idx) :=
  funext fun a => Fin.ext (by match a with | ⟨0, _⟩ => rfl | ⟨1, _⟩ => rfl)
theorem ix_dotl (b : Fin 8192) (c : Fin 4096) (k : Fin 2048) :
    lidx_main_v10 (ix2 b c) k = (ix2 b k : S8192x2048.Idx) :=
  funext fun a => Fin.ext (by match a with | ⟨0, _⟩ => rfl | ⟨1, _⟩ => rfl)
theorem ix_dotr (b : Fin 8192) (c : Fin 4096) (k : Fin 2048) :
    idx_main_v9 (ridx_main_v10 (ix2 b c) k) = (ix2 c k : S4096x2048.Idx) :=
  funext fun a => Fin.ext (by match a with | ⟨0, _⟩ => rfl | ⟨1, _⟩ => rfl)
theorem ix_den (b : Fin 8192) (c c' : Fin 4096) :
    idx_main_v22 (idx_main_v23 (idx_main_v24 (ix2 b c))) c' = (ix2 b c' : S8192x4096.Idx) :=
  funext fun a => Fin.ext (by match a with | ⟨0, _⟩ => rfl | ⟨1, _⟩ => rfl)

theorem ref_is_out (x0 : (⟨S8192x2048, .f32⟩ : BufTy).Contents (Elt Ideal))
    (x1 : (⟨S4096x2048, .f32⟩ : BufTy).Contents (Elt Ideal)) (x2 : (⟨S4096, .f32⟩ : BufTy).Contents (Elt Ideal))
    (x3 : (⟨S1000x4096, .f32⟩ : BufTy).Contents (Elt Ideal)) (x4 : (⟨S1000, .f32⟩ : BufTy).Contents (Elt Ideal)) :
    val_main_v30 (F := Ideal) x0 x1 x2 x3 x4 = Cert.Rbf.out x0 x1 x2 x3 x4 := by
  funext i
  obtain ⟨b, k, rfl⟩ : ∃ (b : Fin 8192) (k : Fin 1000), i = ix2 b k := ⟨i 0, i 1, eq_ix2 i⟩
  simp only [val_main_v30_apply, val_main_v29_apply, val_main_v28_apply, val_main_v27_apply, val_main_v26_apply,
    val_main_v25_apply, val_main_v24_apply, val_main_v23_apply, val_main_v22_apply, val_main_v21_apply,
    val_main_v20_apply, val_main_v19_apply, val_main_v18_apply, val_main_v17_apply, val_main_v16_apply,
    val_main_v15_apply, val_main_v14_apply, val_main_v13_apply, val_main_v12_apply, val_main_v11_apply,
    val_main_v10_apply, val_main_v9_apply, val_main_v8_apply, val_main_v7_apply, val_main_v6_apply,
    val_main_v5_apply, val_main_v4_apply, val_main_v3_apply, val_main_v2_apply, val_main_v1_apply,
    val_main_v0_apply, val_main_cst_apply, val_main_cst_0_apply, val_main_cst_1_apply, val_main_cst_2_apply,
    val_main_cst_3_apply,
    Ideal.addf_def, Ideal.mulf_def, Ideal.subf_def, Ideal.maximumf_def, Ideal.hostDivf_def,
    Ideal.hostUnary_exp_def, Ideal.hostUnary_sqrt_def, Ideal.hostNegf_def, Ideal.negf_def, Ideal.ofBits_def,
    Ideal.ofBits_zero_f32]
  simp only [ix_row, ix_w, ix_bias, ix_den, ix_beta, ix_xsq, ix_csq, ix_dotl, ix_dotr]
  unfold Cert.Rbf.out Cert.Rbf.den Cert.Rbf.act Cert.Rbf.sqd Cert.Rbf.xsq Cert.Rbf.csq Cert.Rbf.dot Cert.Rbf.two
  rfl

end Cert.ReferenceIdeal.RbfRef
-- ==== Proof.Finite.lean ====
/-
  From the precondition to finiteness: the printed predicate is the conjunction of five `jnp.all(|a| < +∞)`, one per
  argument; where it holds, every entry of `x`, of the centers and of `β` lies strictly between the two infinities,
  that is, is a real number.  (The weights and the bias need no such fact: the law that joins the two programs holds
  for arbitrary extended-real weights.)
-/
import proofs.«128381_j64226940944944_2_alg».proof.Pre_finite_inputs
import proofs.«128381_j64226940944944_2_alg».proof.Proof.Law
import Idealize.ShloMosaic.Lib.ReduceAll
import Idealize.ShloMosaic.Lib.ValueIdx

noncomputable section

open Idealize.ShloMosaic Cert.RbfLaw

namespace Cert.RbfFinite

/-- An extended real whose absolute value compares below `+∞` is a real number. -/
theorem fin_of_abs_lt (x : EReal)
    (h : Ideal.cmp .olt (max x (-x)) (Ideal.ofBits .f32 0x7F800000#32) = 1#1) : Fin' x := by
  have hinf : Ideal.ofBits .f32 0x7F800000#32 = ⊤ := by simp [Ideal.ofBits, Ideal.ieee]
  rw [hinf] at h
  induction x using EReal.rec with
  | bot => exact absurd h (by simp [Ideal.cmp])
  | coe r => exact ⟨r, rfl⟩
  | top => exact absurd h (by simp [Ideal.cmp])

instance : Subsingleton Cert.Pre_finite_inputs.S_.Idx := ⟨fun a b => funext fun d => d.elim0⟩

open Cert.Pre_finite_inputs in
/-- Where the precondition holds, `x`, the centers and `β` are real-valued. -/
theorem finite_of_pre [Cert.Pre_finite_inputs.Facts] (x0 : FVec Ideal S8192x2048 .f32) (x1 : FVec Ideal S4096x2048 .f32)
    (x2 : FVec Ideal S4096 .f32) (x3 : FVec Ideal S1000x4096 .f32) (x4 : FVec Ideal S1000 .f32)
    (h : Cert.Pre_finite_inputs.fn (F := Ideal) x0 x1 x2 x3 x4 = fun _ => 1#1) :
    (∀ j, Fin' (x0 j)) ∧ (∀ j, Fin' (x1 j)) ∧ (∀ j, Fin' (x2 j)) := by
  have h0 := congrFun h ValueIdx.ix0
  dsimp only [Cert.Pre_finite_inputs.fn, Cert.Pre_finite_inputs.fn_part1] at h0
  change IntOp.andi _ _ = 1#1 at h0
  obtain ⟨h0123, _⟩ := IntOp.andi_eq_one.1 h0
  change IntOp.andi _ _ = 1#1 at h0123
  obtain ⟨h012, _⟩ := IntOp.andi_eq_one.1 h0123
  change IntOp.andi _ _ = 1#1 at h012
  obtain ⟨h01, hβ⟩ := IntOp.andi_eq_one.1 h012
  change IntOp.andi _ _ = 1#1 at h01
  obtain ⟨hx, hc⟩ := IntOp.andi_eq_one.1 h01
  exact ⟨fun j => fin_of_abs_lt _ (Host.reduce_andi_all _ _ _ _ _ hx j),
    fun j => fin_of_abs_lt _ (Host.reduce_andi_all _ _ _ _ _ hc j),
    fun j => fin_of_abs_lt _ (Host.reduce_andi_all _ _ _ _ _ hβ j)⟩

end Cert.RbfFinite
-- ==== Proof.Pieces.lean ====
/-
  What one grid point leaves behind, as terms of the body's arithmetic (for any float instance).

  The grid is (8 row blocks) × (16 center tiles), the tile index fastest.  Two scratch buffers are carried from tile to
  tile: the numerator `∑ act · W` (1024 × 1024) and the total `∑ act` (1024 × 1).  The first tile of a row block
  resets both before adding its share; every later tile adds its share to what the tile before left; the last tile also
  writes the output block from the updated scratch.  Each statement below reads the stores the body's run made back
  as the one value they cover their buffer with.
-/
import proofs.«128381_j64226940944944_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic
open Idealize.ShloMosaic.Pipeline (Dat)

namespace Cert.KernelIdeal.RbfValue

open Cert.KernelIdeal Cert.KernelIdeal.Gen

variable {F : FTy → Type} [FloatOps F]

theorem hz : (![0, 0] : Fin 2 → Nat) = fun _ => 0 := funext fun a => by fin_cases a <;> rfl

/-- At a row block's first tile the numerator scratch is reset and then receives the tile's contraction. -/
theorem numer_first (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S256x2048 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x1 .f32) (x2 : Vec F S256x2048 .bf16) (x3 : Vec F S1x256 .f32) (x4 : Vec F S1x256 .f32) (x5 : Vec F S1024x256 .bf16) (x6 : Vec F S1x1024 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 = k0_pay1 (k0_pay5 x0 x1 x2 x3 x4) x5 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x1024) hz]
  simp only [View.readCov_unit_zero (S := S1024x1024) _ hz, View.readAt_eq_ld, harg2.read_unread, harg3.read_unread, harg4.read_unread, harg5.read_unread, harg6.read_unread,
    harg7.read_unread, harg8.read_unread, harg10.read_unread, harg11.read_unread,
    View.ld_unit_zero (S := S1024x2048) hz, View.ld_unit_zero (S := S1024x1) hz, View.ld_unit_zero (S := S256x2048) hz,
    View.ld_unit_zero (S := S1x256) hz, View.ld_unit_zero (S := S1024x256) hz, View.ld_unit_zero (S := S1x1024) hz,
    View.ld_unit_zero (S := S1024x1024) hz]

/-- Likewise the total: reset, then the tile's lane sums. -/
theorem total_first (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S256x2048 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1 .f32) (harg11 : arg11.IsWhole) (hc0 : cond0_0 i) (hc1 : ¬cond0_1 i)
    (x0 : Vec F S1024x2048 .bf16) (x1 : Vec F S1024x1 .f32) (x2 : Vec F S256x2048 .bf16) (x3 : Vec F S1x256 .f32) (x4 : Vec F S1x256 .f32) (x5 : Vec F S1024x256 .bf16) (x6 : Vec F S1x1024 .f32) :
    sout0_A_1 c i arg2 harg2 arg3 harg3 arg4 harg4 arg5 harg5 arg6 harg6 arg7 harg7 arg8 harg8 arg9 harg9 arg10 harg10 arg11 harg11 hc0 hc1 x0 x1 x2 x3 x4 x5 x6 = k0_pay6 x0 x1 x2 x3 x4 (k0_pay4 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x1) hz]
  simp only [View.readCov_unit_zero (S := S1024x1) _ hz, View.readAt_eq_ld, harg2.read_unread, harg3.read_unread, harg4.read_unread, harg5.read_unread, harg6.read_unread,
    harg7.read_unread, harg8.read_unread, harg10.read_unread, harg11.read_unread,
    View.ld_unit_zero (S := S1024x2048) hz, View.ld_unit_zero (S := S1024x1) hz, View.ld_unit_zero (S := S256x2048) hz,
    View.ld_unit_zero (S := S1x256) hz, View.ld_unit_zero (S := S1024x256) hz, View.ld_unit_zero (S := S1x1024) hz,
    View.ld_unit_zero (S := S1024x1024) hz]

/-- At a middle tile the numerator scratch `xs0` receives the tile's contraction. -/
theorem numer_mid (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S256x2048 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x1 .f32) (x2 : Vec F S256x2048 .bf16) (x3 : Vec F S1x256 .f32) (x4 : Vec F S1x256 .f32) (x5 : Vec F S1024x256 .bf16) (x6 : Vec F S1x1024 .f32) (xs0 : Vec F S1024x1024 .f32) (xs1 : Vec F S1024x1 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay1 (k0_pay5 x0 x1 x2 x3 x4) x5 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg10.read_unread, harg11.read_unread,
    View.ld_unit_zero (S := S1024x2048) hz, View.ld_unit_zero (S := S1024x1) hz, View.ld_unit_zero (S := S256x2048) hz,
    View.ld_unit_zero (S := S1x256) hz, View.ld_unit_zero (S := S1024x256) hz, View.ld_unit_zero (S := S1x1024) hz,
    View.ld_unit_zero (S := S1024x1024) hz]

/-- And the total scratch `xs1` the tile's lane sums. -/
theorem total_mid (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S256x2048 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1 .f32) (harg11 : arg11.IsWhole) (hc0 : ¬cond0_0 i) (hc1 : ¬cond0_1 i)
    (x0 : Vec F S1024x2048 .bf16) (x1 : Vec F S1024x1 .f32) (x2 : Vec F S256x2048 .bf16) (x3 : Vec F S1x256 .f32) (x4 : Vec F S1x256 .f32) (x5 : Vec F S1024x256 .bf16) (x6 : Vec F S1x1024 .f32) (xs0 : Vec F S1024x1024 .f32) (xs1 : Vec F S1024x1 .f32) :
    sout0_B_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay6 x0 x1 x2 x3 x4 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_B
  dsimp only
  sl_unfold_words
  rw [View.canon_unit_zero hz]
  simp only [View.readAt_eq_ld, harg2.read_unread, harg3.read_unread, harg4.read_unread, harg5.read_unread, harg6.read_unread,
    harg7.read_unread, harg8.read_unread, harg10.read_unread, harg11.read_unread,
    View.ld_unit_zero (S := S1024x2048) hz, View.ld_unit_zero (S := S1024x1) hz, View.ld_unit_zero (S := S256x2048) hz,
    View.ld_unit_zero (S := S1x256) hz, View.ld_unit_zero (S := S1024x256) hz, View.ld_unit_zero (S := S1x1024) hz,
    View.ld_unit_zero (S := S1024x1024) hz]

/-- At the last tile the two scratch buffers are updated in the same way, -/
theorem numer_last (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S256x2048 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x1 .f32) (x2 : Vec F S256x2048 .bf16) (x3 : Vec F S1x256 .f32) (x4 : Vec F S1x256 .f32) (x5 : Vec F S1024x256 .bf16) (x6 : Vec F S1x1024 .f32) (xs0 : Vec F S1024x1024 .f32) (xs1 : Vec F S1024x1 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay1 (k0_pay5 x0 x1 x2 x3 x4) x5 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg10.read_unread, harg11.read_unread,
    View.ld_unit_zero (S := S1024x2048) hz, View.ld_unit_zero (S := S1024x1) hz, View.ld_unit_zero (S := S256x2048) hz,
    View.ld_unit_zero (S := S1x256) hz, View.ld_unit_zero (S := S1024x256) hz, View.ld_unit_zero (S := S1x1024) hz,
    View.ld_unit_zero (S := S1024x1024) hz]

theorem total_last (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S256x2048 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x1 .f32) (x2 : Vec F S256x2048 .bf16) (x3 : Vec F S1x256 .f32) (x4 : Vec F S1x256 .f32) (x5 : Vec F S1024x256 .bf16) (x6 : Vec F S1x1024 .f32) (xs0 : Vec F S1024x1024 .f32) (xs1 : Vec F S1024x1 .f32) :
    sout0_C_1 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay6 x0 x1 x2 x3 x4 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readAt_eq_ld, harg2.read_unread, harg3.read_unread, harg4.read_unread, harg5.read_unread, harg6.read_unread,
    harg7.read_unread, harg8.read_unread, harg10.read_unread, harg11.read_unread,
    View.ld_unit_zero (S := S1024x2048) hz, View.ld_unit_zero (S := S1024x1) hz, View.ld_unit_zero (S := S256x2048) hz,
    View.ld_unit_zero (S := S1x256) hz, View.ld_unit_zero (S := S1024x256) hz, View.ld_unit_zero (S := S1x1024) hz,
    View.ld_unit_zero (S := S1024x1024) hz]

/-- and the output block is the head of the UPDATED numerator and total: one division, then the bias. -/
theorem head_last (c : Dev nD) (i : grid0.Coords) (arg2 : Memref sig .tc .vmem S1024x2048 .bf16) (harg2 : arg2.IsWhole) (arg3 : Memref sig .tc .vmem S1024x1 .f32) (harg3 : arg3.IsWhole) (arg4 : Memref sig .tc .vmem S256x2048 .bf16) (harg4 : arg4.IsWhole) (arg5 : Memref sig .tc .vmem S1x256 .f32) (harg5 : arg5.IsWhole) (arg6 : Memref sig .tc .vmem S1x256 .f32) (harg6 : arg6.IsWhole) (arg7 : Memref sig .tc .vmem S1024x256 .bf16) (harg7 : arg7.IsWhole) (arg8 : Memref sig .tc .vmem S1x1024 .f32) (harg8 : arg8.IsWhole) (arg9 : Memref sig .tc .vmem S1024x1024 .f32) (harg9 : arg9.IsWhole) (arg10 : Memref sig .tc .vmem S1024x1024 .f32) (harg10 : arg10.IsWhole) (arg11 : Memref sig .tc .vmem S1024x1 .f32) (harg11 : arg11.IsWhole) (hc0 : ¬cond0_0 i) (hc1 : cond0_1 i)
    (x0 : Vec F S1024x2048 .bf16) (x1 : Vec F S1024x1 .f32) (x2 : Vec F S256x2048 .bf16) (x3 : Vec F S1x256 .f32) (x4 : Vec F S1x256 .f32) (x5 : Vec F S1024x256 .bf16) (x6 : Vec F S1x1024 .f32) (xs0 : Vec F S1024x1024 .f32) (xs1 : Vec F S1024x1 .f32) :
    out0_C_7 c i arg2 harg2 arg3 harg3 arg4 harg4 arg5 harg5 arg6 harg6 arg7 harg7 arg8 harg8 arg9 harg9 arg10 harg10 arg11 harg11 hc0 hc1 x0 x1 x2 x3 x4 x5 x6 xs0 xs1 = k0_pay2 (k0_pay1 (k0_pay5 x0 x1 x2 x3 x4) x5 xs0) (k0_pay6 x0 x1 x2 x3 x4 xs1) x6 := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 hc0 hc1 x0 x1 x2 x3 x4 x5 x6 xs0 xs1)]
  unfold kernelRun0_C
  dsimp only
  sl_unfold_words
  rw [View.canon_unit_zero hz]
  simp only [View.readCov_unit_zero (S := S1024x1024) _ hz, View.readCov_unit_zero (S := S1024x1) _ hz, View.readAt_eq_ld, harg2.read_unread, harg3.read_unread, harg4.read_unread, harg5.read_unread, harg6.read_unread,
    harg7.read_unread, harg8.read_unread, harg10.read_unread, harg11.read_unread,
    View.ld_unit_zero (S := S1024x2048) hz, View.ld_unit_zero (S := S1024x1) hz, View.ld_unit_zero (S := S256x2048) hz,
    View.ld_unit_zero (S := S1x256) hz, View.ld_unit_zero (S := S1024x256) hz, View.ld_unit_zero (S := S1x1024) hz,
    View.ld_unit_zero (S := S1024x1024) hz]

end Cert.KernelIdeal.RbfValue

end
-- ==== Proof.Payloads.lean ====
/-
  The kernel body's arithmetic, one element at a time, over the extended reals.

  At row `p` of the batch block and center `q` of the tile, the body forms the activation
  `exp((0 - β_q) · √max(‖x_p‖² + ‖μ_q‖² - 2·⟨x_p, μ_q⟩, 0))` (`act_apply`: the matrix unit's product is the sum
  over the 2048 features, the column and the row broadcasts read their one entry); adds the tile's 256 activations
  of row `p` to the running total (`total_apply`); adds their contraction with the tile's weights to the running
  numerator (`numer_apply`); and, after the last tile, divides and adds the bias (`head_apply`).
-/
import proofs.«128381_j64226940944944_2_alg».proof.Proof.Gen.KernelIdeal.Skeleton
import proofs.«128381_j64226940944944_2_alg».proof.Proof.Spec
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.KernelIdeal.RbfPay

open Cert.KernelIdeal Cert.KernelIdeal.Gen

/-! ## The layout operations of the body, read at an index -/

section Layout
variable {α : Type}

/-- A column [1024,1] broadcast along 256 lanes reads the row's one entry. -/
theorem bcast_col256 (v : S1024x1.Idx → α) (h : S1024x1.Broadcasts S1024x256) (p : Fin 1024) (q : Fin 256) :
    broadcastTo S1024x256 v h (ix2 p q) = v (ix2 p (0 : Fin 1)) :=
  broadcastTo_apply v h (ix2 p q) (ix2 p (0 : Fin 1)) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A row [1,256] broadcast down 1024 sublanes reads the lane's one entry. -/
theorem bcast_row256 (v : S1x256.Idx → α) (h : S1x256.Broadcasts S1024x256) (p : Fin 1024) (q : Fin 256) :
    broadcastTo S1024x256 v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by show q.val = if (256 : Nat) = 1 then 0 else q.val; rw [if_neg (by decide)])

/-- A column [1024,1] broadcast along 1024 lanes. -/
theorem bcast_col1024 (v : S1024x1.Idx → α) (h : S1024x1.Broadcasts S1024x1024) (p q : Fin 1024) :
    broadcastTo S1024x1024 v h (ix2 p q) = v (ix2 p (0 : Fin 1)) :=
  broadcastTo_apply v h (ix2 p q) (ix2 p (0 : Fin 1)) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A row [1,1024] broadcast down 1024 sublanes. -/
theorem bcast_row1024 (v : S1x1024.Idx → α) (h : S1x1024.Broadcasts S1024x1024) (p q : Fin 1024) :
    broadcastTo S1024x1024 v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- A vector [1024] viewed as a column [1024,1]. -/
theorem cast_col (v : S1024.Idx → α) (h : S1024.ShapeCasts S1024x1) (p : Fin 1024) :
    shapeCast S1024x1 v h (ix2 p (0 : Fin 1)) = v (ix1 p) :=
  shapeCast_apply v h (ix2 p (0 : Fin 1)) (ix1 p) (by
    rw [Shape.rowMajor_val_one, Shape.rowMajor_val_two]
    show p.val = p.val * 1 + 0
    omega)

end Layout

/-! ## The two matrix products and the lane sum -/

theorem gram_lhs0 (i : S1024x256.Idx) (u : dot_S1024x2048_S256x2048_S1024x256_1_1_0_0_n_n.contr.Idx) :
    (dot_S1024x2048_S256x2048_S1024x256_1_1_0_0_n_n.lhsIdx i u 0).val = (i 0).val := by
  unfold DotDims.lhsIdx
  rw [dif_neg (show ¬(0 : Fin S1024x2048.rank) ∈ dot_S1024x2048_S256x2048_S1024x256_1_1_0_0_n_n.lhsBatch by decide),
    dif_pos (show (0 : Fin S1024x2048.rank) ∈ dot_S1024x2048_S256x2048_S1024x256_1_1_0_0_n_n.lhsNonContracting by decide)]
  rfl
theorem gram_rhs0 (i : S1024x256.Idx) (u : dot_S1024x2048_S256x2048_S1024x256_1_1_0_0_n_n.contr.Idx) :
    (dot_S1024x2048_S256x2048_S1024x256_1_1_0_0_n_n.rhsIdx i u 0).val = (i 1).val := by
  unfold DotDims.rhsIdx
  rw [dif_neg (show ¬(0 : Fin S256x2048.rank) ∈ dot_S1024x2048_S256x2048_S1024x256_1_1_0_0_n_n.rhsBatch by decide),
    dif_pos (show (0 : Fin S256x2048.rank) ∈ dot_S1024x2048_S256x2048_S1024x256_1_1_0_0_n_n.rhsNonContracting by decide)]
  rfl
theorem head_lhs0 (i : S1024x1024.Idx) (u : dot_S1024x256_S1024x256_S1024x1024_1_1_0_0_n_n.contr.Idx) :
    (dot_S1024x256_S1024x256_S1024x1024_1_1_0_0_n_n.lhsIdx i u 0).val = (i 0).val := by
  unfold DotDims.lhsIdx
  rw [dif_neg (show ¬(0 : Fin S1024x256.rank) ∈ dot_S1024x256_S1024x256_S1024x1024_1_1_0_0_n_n.lhsBatch by decide),
    dif_pos (show (0 : Fin S1024x256.rank) ∈ dot_S1024x256_S1024x256_S1024x1024_1_1_0_0_n_n.lhsNonContracting by decide)]
  rfl
theorem head_rhs0 (i : S1024x1024.Idx) (u : dot_S1024x256_S1024x256_S1024x1024_1_1_0_0_n_n.contr.Idx) :
    (dot_S1024x256_S1024x256_S1024x1024_1_1_0_0_n_n.rhsIdx i u 0).val = (i 1).val := by
  unfold DotDims.rhsIdx
  rw [dif_neg (show ¬(0 : Fin S1024x256.rank) ∈ dot_S1024x256_S1024x256_S1024x1024_1_1_0_0_n_n.rhsBatch by decide),
    dif_pos (show (0 : Fin S1024x256.rank) ∈ dot_S1024x256_S1024x256_S1024x1024_1_1_0_0_n_n.rhsNonContracting by decide)]
  rfl

/-- `x_tile · μ_tileᵀ` into a zero accumulator: the sum over the 2048 features. -/
theorem gram_apply (l : FVec Ideal S1024x2048 .bf16) (r : FVec Ideal S256x2048 .bf16) (p : Fin 1024) (q : Fin 256) :
    matmul dot_S1024x2048_S256x2048_S1024x256_1_1_0_0_n_n none l r (constant S1024x256 .f32 0x00000000#32) (ix2 p q)
      = ∑ k : Fin 2048, l (ix2 p k) * r (ix2 q k) := by
  simp only [matmul]
  rw [Ideal.matmul_constant_zero_apply,
    ← Equiv.sum_comp (ValueIdx.contrEquiv1 dot_S1024x2048_S256x2048_S1024x256_1_1_0_0_n_n 2048 rfl rfl).symm]
  refine Finset.sum_congr rfl fun k _ => ?_
  have hk := ValueIdx.contrEquiv1_symm_val dot_S1024x2048_S256x2048_S1024x256_1_1_0_0_n_n 2048 rfl rfl k
  have el : dot_S1024x2048_S256x2048_S1024x256_1_1_0_0_n_n.lhsIdx (ix2 p q)
      ((ValueIdx.contrEquiv1 dot_S1024x2048_S256x2048_S1024x256_1_1_0_0_n_n 2048 rfl rfl).symm k) = ix2 p k :=
    funext fun a => Fin.ext (by
      match a with
      | ⟨0, _⟩ => exact gram_lhs0 _ _
      | ⟨1, _⟩ => exact (dot_S1024x2048_S256x2048_S1024x256_1_1_0_0_n_n.lhsIdx_val_of_single rfl _ _).trans hk)
  have er : dot_S1024x2048_S256x2048_S1024x256_1_1_0_0_n_n.rhsIdx (ix2 p q)
      ((ValueIdx.contrEquiv1 dot_S1024x2048_S256x2048_S1024x256_1_1_0_0_n_n 2048 rfl rfl).symm k) = ix2 q k :=
    funext fun a => Fin.ext (by
      match a with
      | ⟨0, _⟩ => exact gram_rhs0 _ _
      | ⟨1, _⟩ => exact (dot_S1024x2048_S256x2048_S1024x256_1_1_0_0_n_n.rhsIdx_val_of_single rfl _ _).trans hk)
  rw [el, er]

/-- `act_tile · W_tileᵀ` into a zero accumulator: the sum over the tile's 256 centers. -/
theorem head_mm_apply (l : FVec Ideal S1024x256 .bf16) (r : FVec Ideal S1024x256 .bf16) (p q : Fin 1024) :
    matmul dot_S1024x256_S1024x256_S1024x1024_1_1_0_0_n_n none l r (constant S1024x1024 .f32 0x00000000#32) (ix2 p q)
      = ∑ k : Fin 256, l (ix2 p k) * r (ix2 q k) := by
  simp only [matmul]
  rw [Ideal.matmul_constant_zero_apply,
    ← Equiv.sum_comp (ValueIdx.contrEquiv1 dot_S1024x256_S1024x256_S1024x1024_1_1_0_0_n_n 256 rfl rfl).symm]
  refine Finset.sum_congr rfl fun k _ => ?_
  have hk := ValueIdx.contrEquiv1_symm_val dot_S1024x256_S1024x256_S1024x1024_1_1_0_0_n_n 256 rfl rfl k
  have el : dot_S1024x256_S1024x256_S1024x1024_1_1_0_0_n_n.lhsIdx (ix2 p q)
      ((ValueIdx.contrEquiv1 dot_S1024x256_S1024x256_S1024x1024_1_1_0_0_n_n 256 rfl rfl).symm k) = ix2 p k :=
    funext fun a => Fin.ext (by
      match a with
      | ⟨0, _⟩ => exact head_lhs0 _ _
      | ⟨1, _⟩ => exact (dot_S1024x256_S1024x256_S1024x1024_1_1_0_0_n_n.lhsIdx_val_of_single rfl _ _).trans hk)
  have er : dot_S1024x256_S1024x256_S1024x1024_1_1_0_0_n_n.rhsIdx (ix2 p q)
      ((ValueIdx.contrEquiv1 dot_S1024x256_S1024x256_S1024x1024_1_1_0_0_n_n 256 rfl rfl).symm k) = ix2 q k :=
    funext fun a => Fin.ext (by
      match a with
      | ⟨0, _⟩ => exact head_rhs0 _ _
      | ⟨1, _⟩ => exact (dot_S1024x256_S1024x256_S1024x1024_1_1_0_0_n_n.rhsIdx_val_of_single rfl _ _).trans hk)
  rw [el, er]

/-- The sum along the 256 lanes of a row. -/
theorem lane_sum (v : FVec Ideal S1024x256 .f32) (h : S1024x256.Reduces [1] S1024) (hφ : FKind.Formats .f32)
    (hacc : (0x00000000#32 : BitVec 32) = FKind.add.neutral .f32 hφ) (p : Fin 1024) :
    multiReduction .add [1] S1024 v 0x00000000#32 h hφ hacc (ix1 p) = ∑ q : Fin 256, v (ix2 p q) := by
  refine (Ideal.multiReduction_add_single v 0x00000000#32 h hφ hacc (ix1 p)).trans ?_
  exact Finset.sum_congr rfl fun q _ => congrArg v (funext fun a => Fin.ext (by
    match a with
    | ⟨0, _⟩ => rfl
    | ⟨1, _⟩ => rfl))

/-! ## The payloads -/

/-- The activation the body computes at row `p`, lane `q`. -/
theorem act_apply (x0 : FVec Ideal S1024x2048 .bf16) (x1 : FVec Ideal S1024x1 .f32) (x2 : FVec Ideal S256x2048 .bf16)
    (x3 : FVec Ideal S1x256 .f32) (x4 : FVec Ideal S1x256 .f32) (p : Fin 1024) (q : Fin 256) :
    k0_pay5 (F := Ideal) x0 x1 x2 x3 x4 (ix2 p q)
      = Ideal.exp (-(x4 (ix2 (0 : Fin 1) q)) * Ideal.sqrt (max
          ((x1 (ix2 p (0 : Fin 1)) + x3 (ix2 (0 : Fin 1) q)) - Cert.Rbf.two * ∑ k : Fin 2048, x0 (ix2 p k) * x2 (ix2 q k)) 0)) := by
  unfold k0_pay5
  simp only [shapeCast_self]
  show Ideal.exp (broadcastTo S1024x256 (subf (broadcast S1x256 (Scalar.ofBits .f32 0x00000000#32)) x4) _ (ix2 p q)
      * Ideal.sqrt (max ((broadcastTo S1024x256 x1 _ (ix2 p q) + broadcastTo S1024x256 x3 _ (ix2 p q))
        - Ideal.ofBits .f32 0x40000000#32 * matmul dot_S1024x2048_S256x2048_S1024x256_1_1_0_0_n_n none x0 x2
            (constant S1024x256 .f32 0x00000000#32) (ix2 p q)) (Ideal.ofBits .f32 0x00000000#32))) = _
  rw [bcast_row256, bcast_col256, bcast_row256, gram_apply, Ideal.ofBits_zero_f32]
  show Ideal.exp ((Ideal.ofBits .f32 0x00000000#32 - x4 (ix2 (0 : Fin 1) q)) * _) = _
  rw [Ideal.ofBits_zero_f32, zero_sub]
  rfl

/-- The running total after this tile, at row `p`. -/
theorem total_apply (x0 : FVec Ideal S1024x2048 .bf16) (x1 : FVec Ideal S1024x1 .f32) (x2 : FVec Ideal S256x2048 .bf16)
    (x3 : FVec Ideal S1x256 .f32) (x4 : FVec Ideal S1x256 .f32) (xs1 : FVec Ideal S1024x1 .f32) (p : Fin 1024) :
    k0_pay6 (F := Ideal) x0 x1 x2 x3 x4 xs1 (ix2 p (0 : Fin 1))
      = xs1 (ix2 p (0 : Fin 1)) + ∑ q : Fin 256, k0_pay5 (F := Ideal) x0 x1 x2 x3 x4 (ix2 p q) := by
  unfold k0_pay6
  simp only [shapeCast_self]
  show xs1 (ix2 p (0 : Fin 1)) + shapeCast S1024x1 (multiReduction .add [1] S1024 (k0_pay5 (F := Ideal) x0 x1 x2 x3 x4)
      0x00000000#32 _ _ _) _ (ix2 p (0 : Fin 1)) = _
  rw [cast_col]
  exact congrArg _ (lane_sum _ _ _ _ p)

/-- The running numerator after this tile, at row `p`, class `q`. -/
theorem numer_apply (a : FVec Ideal S1024x256 .f32) (x5 : FVec Ideal S1024x256 .bf16) (xs0 : FVec Ideal S1024x1024 .f32)
    (p q : Fin 1024) :
    k0_pay1 (F := Ideal) a x5 xs0 (ix2 p q) = xs0 (ix2 p q) + ∑ k : Fin 256, a (ix2 p k) * x5 (ix2 q k) := by
  unfold k0_pay1
  simp only [shapeCast_self]
  show xs0 (ix2 p q) + matmul dot_S1024x256_S1024x256_S1024x1024_1_1_0_0_n_n none
      (truncf .bf16 a bitsLt_bf16_f32) x5 (constant S1024x1024 .f32 0x00000000#32) (ix2 p q) = _
  rw [head_mm_apply]
  rfl

/-- The head after the last tile: one division, then the bias. -/
theorem head_apply (n : FVec Ideal S1024x1024 .f32) (d : FVec Ideal S1024x1 .f32) (x6 : FVec Ideal S1x1024 .f32)
    (p q : Fin 1024) :
    k0_pay2 (F := Ideal) n d x6 (ix2 p q)
      = Ideal.div (n (ix2 p q)) (d (ix2 p (0 : Fin 1))) + x6 (ix2 (0 : Fin 1) q) := by
  unfold k0_pay2
  simp only [shapeCast_self]
  show Ideal.div (n (ix2 p q)) (broadcastTo S1024x1024 d _ (ix2 p q)) + broadcastTo S1024x1024 x6 _ (ix2 p q) = _
  rw [bcast_col1024, bcast_row1024]

/-- The two reset payloads are zero. -/
theorem zero_numer_apply (j : S1024x1024.Idx) : k0_pay3 (F := Ideal) j = 0 := by
  unfold k0_pay3
  simp only [shapeCast_self]
  exact Ideal.ofBits_zero_f32

theorem zero_total_apply (j : S1024x1.Idx) : k0_pay4 (F := Ideal) j = 0 := by
  unfold k0_pay4
  simp only [shapeCast_self]
  exact Ideal.ofBits_zero_f32

end Cert.KernelIdeal.RbfPay
-- ==== Proof.Arrays.lean ====
/-
  The arrays the launch hands the kernel, one element at a time, over the extended reals.

  Before the launch the host squares and sums the rows of `x` and of the centers, views `β` and the squared center
  norms as rows [1, 4096], pads the weight matrix and the bias from 1000 to 1024 classes with zeros, and narrows
  three arrays to bf16 — the identity on extended reals.  So: the kernel's `x` and centers are the arguments;
  its two norm arrays are `Cert.Rbf.xsq` and `Cert.Rbf.csq`; its `β` row is `β`; and below class 1000 its padded
  weights and bias are the arguments' entries.
-/
import proofs.«128381_j64226940944944_2_alg».proof.Proof.Gen.KernelIdeal.Frame
import proofs.«128381_j64226940944944_2_alg».proof.Proof.Spec
import Idealize.ShloMosaic.Lib.Pipeline.Value
import Idealize.ShloMosaic.Lib.ValueIdx
import Idealize.ShloMosaic.Lib.StableHlo.Run
import Idealize.ShloMosaic.Lib.KernelVsHost
import Idealize.ShloMosaic.Lib.Tactic
import Idealize.ShloMosaic.PureOps.Ideal.Laws

noncomputable section

open scoped BigOperators
open Idealize.ShloMosaic Idealize.ShloMosaic.TcCoe Idealize.SL.Sem Idealize.ShloMosaic.ValueIdx
open Idealize.ShloMosaic.StableHlo

namespace Cert.KernelIdeal.RbfArr

open Cert.KernelIdeal Cert.KernelIdeal.Gen

variable (m : (ℓ : Loc nD τ sig) → Buf (Elt Ideal) ℓ) (c : Dev nD)

/-- The five argument arrays as launched. -/
abbrev X : S8192x2048.Idx → EReal := m ((c : Thread nD τ).loc main_arg0)
abbrev Cn : S4096x2048.Idx → EReal := m ((c : Thread nD τ).loc main_arg1)
abbrev Bt : S4096.Idx → EReal := m ((c : Thread nD τ).loc main_arg2)
abbrev Wt : S1000x4096.Idx → EReal := m ((c : Thread nD τ).loc main_arg3)
abbrev Bs : S1000.Idx → EReal := m ((c : Thread nD τ).loc main_arg4)

/-! ## Each array at an index -/

theorem V_x (b : Fin 8192) (k : Fin 2048) : V m c main_v12 (ix2 b k) = X m c (ix2 b k) := by
  have e : (V m c main_v12 : S8192x2048.Idx → EReal) = truncf (F := Ideal) .bf16 (X m c) bitsLt_bf16_f32 := by
    dsimp only [Gen.V, Gen.V0]
    simp only [Gen.hostOps0, Gen.hostOps0_1, Gen.hostOps0_2, Gen.hostOps0_3, Gen.hostOps0_4, List.flatten_cons,
      List.flatten_nil, List.append_nil, List.cons_append, List.nil_append]
    after_results
    try rfl
  rw [e]
  rfl

theorem V_cen (q : Fin 4096) (k : Fin 2048) : V m c main_v4 (ix2 q k) = Cn m c (ix2 q k) := by
  have e : (V m c main_v4 : S4096x2048.Idx → EReal) = truncf (F := Ideal) .bf16 (Cn m c) bitsLt_bf16_f32 := by
    dsimp only [Gen.V, Gen.V0]
    simp only [Gen.hostOps0, Gen.hostOps0_1, Gen.hostOps0_2, Gen.hostOps0_3, Gen.hostOps0_4, List.flatten_cons,
      List.flatten_nil, List.append_nil, List.cons_append, List.nil_append]
    after_results
    try rfl
  rw [e]
  rfl

/-- A host row sum from zero, read at a row. -/
theorem rowsum_x (y : S8192x2048.Idx → EReal) (b : Fin 8192) :
    Host.reduceAdd (F := Ideal) y (constant (F := Ideal) S_ .f32 0x00000000#32) reducesTo_S8192x2048_S8192_d1 h_S_ (ix1 b)
      = 0 + ∑ k : Fin 2048, y (ix2 b k) := by
  simp only [Host.reduceAdd, Ideal.hostReduceAdd_def]
  rw [Ideal.hostReduceAdd_single reducesTo_S8192x2048_S8192_d1 (by decide)]
  show Ideal.ofBits .f32 0x00000000#32 + _ = _
  rw [Ideal.ofBits_zero_f32]
  refine congrArg (0 + ·) (Finset.sum_congr rfl fun k _ => ?_)
  exact congrArg y (funext fun a => Fin.ext (by match a with | ⟨0, _⟩ => rfl | ⟨1, _⟩ => rfl))

theorem rowsum_c (y : S4096x2048.Idx → EReal) (q : Fin 4096) :
    Host.reduceAdd (F := Ideal) y (constant (F := Ideal) S_ .f32 0x00000000#32) reducesTo_S4096x2048_S4096_d1 h_S_ (ix1 q)
      = 0 + ∑ k : Fin 2048, y (ix2 q k) := by
  simp only [Host.reduceAdd, Ideal.hostReduceAdd_def]
  rw [Ideal.hostReduceAdd_single reducesTo_S4096x2048_S4096_d1 (by decide)]
  show Ideal.ofBits .f32 0x00000000#32 + _ = _
  rw [Ideal.ofBits_zero_f32]
  refine congrArg (0 + ·) (Finset.sum_congr rfl fun k _ => ?_)
  exact congrArg y (funext fun a => Fin.ext (by match a with | ⟨0, _⟩ => rfl | ⟨1, _⟩ => rfl))

theorem V_xsq (b : Fin 8192) : V m c main_v11 (ix2 b (0 : Fin 1)) = Cert.Rbf.xsq (X m c) b := by
  have e : (V m c main_v11 : S8192x1.Idx → EReal) = broadcastInDim S8192x1 ![0] bcast_S8192_S8192x1_0
      (Host.reduceAdd (F := Ideal) (mulf (X m c) (X m c)) (constant (F := Ideal) S_ .f32 0x00000000#32)
        reducesTo_S8192x2048_S8192_d1 h_S_) := by
    dsimp only [Gen.V, Gen.V0]
    simp only [Gen.hostOps0, Gen.hostOps0_1, Gen.hostOps0_2, Gen.hostOps0_3, Gen.hostOps0_4, List.flatten_cons,
      List.flatten_nil, List.append_nil, List.cons_append, List.nil_append]
    after_results
    try rfl
  rw [e]
  refine (broadcastInDim_apply _ bcast_S8192_S8192x1_0 _ (ix2 b (0 : Fin 1)) (ix1 b) (fun a => match a with
    | ⟨0, _⟩ => by show b.val = if (8192 : Nat) = 1 then 0 else b.val; rw [if_neg (by decide)])).trans ?_
  rw [rowsum_x]
  rfl

theorem V_csq (q : Fin 4096) : V m c main_v2 (ix2 (0 : Fin 1) q) = Cert.Rbf.csq (Cn m c) q := by
  have e : (V m c main_v2 : S1x4096.Idx → EReal) = shapeCast S1x4096
      (Host.reduceAdd (F := Ideal) (mulf (Cn m c) (Cn m c)) (constant (F := Ideal) S_ .f32 0x00000000#32)
        reducesTo_S4096x2048_S4096_d1 h_S_) shapeCasts_S4096_S1x4096 := by
    dsimp only [Gen.V, Gen.V0]
    simp only [Gen.hostOps0, Gen.hostOps0_1, Gen.hostOps0_2, Gen.hostOps0_3, Gen.hostOps0_4, List.flatten_cons,
      List.flatten_nil, List.append_nil, List.cons_append, List.nil_append]
    after_results
    try rfl
  rw [e]
  refine (shapeCast_apply _ shapeCasts_S4096_S1x4096 (ix2 (0 : Fin 1) q) (ix1 q) (by
    rw [Shape.rowMajor_val_one, Shape.rowMajor_val_two]
    show q.val = 0 * 4096 + q.val
    omega)).trans ?_
  rw [rowsum_c]
  rfl

theorem V_beta (q : Fin 4096) : V m c main_v3 (ix2 (0 : Fin 1) q) = Bt m c (ix1 q) := by
  have e : (V m c main_v3 : S1x4096.Idx → EReal) = shapeCast S1x4096 (Bt m c) shapeCasts_S4096_S1x4096 := by
    dsimp only [Gen.V, Gen.V0]
    simp only [Gen.hostOps0, Gen.hostOps0_1, Gen.hostOps0_2, Gen.hostOps0_3, Gen.hostOps0_4, List.flatten_cons,
      List.flatten_nil, List.append_nil, List.cons_append, List.nil_append]
    after_results
    try rfl
  rw [e]
  exact shapeCast_apply _ shapeCasts_S4096_S1x4096 (ix2 (0 : Fin 1) q) (ix1 q) (by
    rw [Shape.rowMajor_val_one, Shape.rowMajor_val_two]
    show q.val = 0 * 4096 + q.val
    omega)

/-- Below class 1000 the padded weights are the weights. -/
theorem V_w (r : Fin 1024) (hr : r.val < 1000) (q : Fin 4096) :
    V m c main_v7 (ix2 r q) = Wt m c (ix2 (⟨r.val, hr⟩ : Fin 1000) q) := by
  have e : (V m c main_v7 : S1024x4096.Idx → EReal) = truncf (F := Ideal) .bf16
      (pad S1024x4096 ![0, 0] ![24, 0] ![0, 0] (Wt m c) (sitofp (F := Ideal) .f32 (constantI S_ 32 0#32))
        pads_S1000x4096_S1024x4096_0240_000 h_S_) bitsLt_bf16_f32 := by
    dsimp only [Gen.V, Gen.V0]
    simp only [Gen.hostOps0, Gen.hostOps0_1, Gen.hostOps0_2, Gen.hostOps0_3, Gen.hostOps0_4, List.flatten_cons,
      List.flatten_nil, List.append_nil, List.cons_append, List.nil_append]
    after_results
    try rfl
  rw [e]
  show pad S1024x4096 ![0, 0] ![24, 0] ![0, 0] (Wt m c) (sitofp (F := Ideal) .f32 (constantI S_ 32 0#32))
        pads_S1000x4096_S1024x4096_0240_000 h_S_ (ix2 r q) = _
  exact pad_apply_of_inside _ _ _ _ _ pads_S1000x4096_S1024x4096_0240_000 h_S_ (ix2 r q) (ix2 (⟨r.val, hr⟩ : Fin 1000) q)
    (fun a => match a with
      | ⟨0, _⟩ => by show r.val = 0 + r.val * (0 + 1); omega
      | ⟨1, _⟩ => by show q.val = 0 + q.val * (0 + 1); omega)

/-- Below class 1000 the padded bias is the bias. -/
theorem V_bias (r : Fin 1024) (hr : r.val < 1000) :
    V m c main_v8 (ix2 (0 : Fin 1) r) = Bs m c (ix1 (⟨r.val, hr⟩ : Fin 1000)) := by
  have e : (V m c main_v8 : S1x1024.Idx → EReal) = shapeCast S1x1024
      (pad S1024 ![0] ![24] ![0] (Bs m c) (sitofp (F := Ideal) .f32 (constantI S_ 32 0#32)) pads_S1000_S1024_0240 h_S_)
      shapeCasts_S1024_S1x1024 := by
    dsimp only [Gen.V, Gen.V0]
    simp only [Gen.hostOps0, Gen.hostOps0_1, Gen.hostOps0_2, Gen.hostOps0_3, Gen.hostOps0_4, List.flatten_cons,
      List.flatten_nil, List.append_nil, List.cons_append, List.nil_append]
    after_results
    try rfl
  rw [e]
  refine (shapeCast_apply _ shapeCasts_S1024_S1x1024 (ix2 (0 : Fin 1) r) (ix1 r) (by
    rw [Shape.rowMajor_val_one, Shape.rowMajor_val_two]
    show r.val = 0 * 1024 + r.val
    omega)).trans ?_
  exact pad_apply_of_inside _ _ _ _ _ pads_S1000_S1024_0240 h_S_ (ix1 r) (ix1 (⟨r.val, hr⟩ : Fin 1000))
    (fun a => match a with
      | ⟨0, _⟩ => by show r.val = 0 + r.val * (0 + 1); omega)

end Cert.KernelIdeal.RbfArr

end
-- ==== Proof.Blocks.lean ====
/-
  What each window holds at a grid point, one element at a time.

  Point `t` of the 8 × 16 grid works on row block `t / 16` and center tile `t % 16`: row `p` of the block is row
  `1024·(t/16) + p` of the batch, lane `q` of the tile is center `256·(t%16) + q`.  The windows on `x` and its row
  norms move with the row block; those on the centers, their norms, `β` and the weights move with the tile; the bias
  window never moves.
-/
import proofs.«128381_j64226940944944_2_alg».proof.Proof.Arrays

noncomputable section

open scoped BigOperators
open Idealize.ShloMosaic Idealize.ShloMosaic.TcCoe Idealize.SL.Sem Idealize.ShloMosaic.ValueIdx

namespace Cert.KernelIdeal.RbfBlk

open Cert.KernelIdeal Cert.KernelIdeal.Gen Cert.RbfLaw Cert.KernelIdeal.RbfArr

variable (m : (ℓ : Loc nD τ sig) → Buf (Elt Ideal) ℓ) (c : Dev nD)

/-! ## Where each window's block sits, decided once over the grid -/

theorem at0 : ∀ t : Fin cfg0.N, win0_0.index t (0 : Fin 2) = t.val / 16 ∧ win0_0.index t (1 : Fin 2) = 0 :=
  (by decide +kernel : ∀ t : Fin grid0.N, win0_0.index t (0 : Fin 2) = t.val / 16 ∧ win0_0.index t (1 : Fin 2) = 0)
theorem at1 : ∀ t : Fin cfg0.N, win0_1.index t (0 : Fin 2) = t.val / 16 ∧ win0_1.index t (1 : Fin 2) = 0 :=
  (by decide +kernel : ∀ t : Fin grid0.N, win0_1.index t (0 : Fin 2) = t.val / 16 ∧ win0_1.index t (1 : Fin 2) = 0)
theorem at2 : ∀ t : Fin cfg0.N, win0_2.index t (0 : Fin 2) = t.val % 16 ∧ win0_2.index t (1 : Fin 2) = 0 :=
  (by decide +kernel : ∀ t : Fin grid0.N, win0_2.index t (0 : Fin 2) = t.val % 16 ∧ win0_2.index t (1 : Fin 2) = 0)
theorem at3 : ∀ t : Fin cfg0.N, win0_3.index t (0 : Fin 2) = 0 ∧ win0_3.index t (1 : Fin 2) = t.val % 16 :=
  (by decide +kernel : ∀ t : Fin grid0.N, win0_3.index t (0 : Fin 2) = 0 ∧ win0_3.index t (1 : Fin 2) = t.val % 16)
theorem at4 : ∀ t : Fin cfg0.N, win0_4.index t (0 : Fin 2) = 0 ∧ win0_4.index t (1 : Fin 2) = t.val % 16 :=
  (by decide +kernel : ∀ t : Fin grid0.N, win0_4.index t (0 : Fin 2) = 0 ∧ win0_4.index t (1 : Fin 2) = t.val % 16)
theorem at5 : ∀ t : Fin cfg0.N, win0_5.index t (0 : Fin 2) = 0 ∧ win0_5.index t (1 : Fin 2) = t.val % 16 :=
  (by decide +kernel : ∀ t : Fin grid0.N, win0_5.index t (0 : Fin 2) = 0 ∧ win0_5.index t (1 : Fin 2) = t.val % 16)
theorem at6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem at7 : ∀ t : Fin cfg0.N, win0_7.index t (0 : Fin 2) = t.val / 16 ∧ win0_7.index t (1 : Fin 2) = 0 :=
  (by decide +kernel : ∀ t : Fin grid0.N, win0_7.index t (0 : Fin 2) = t.val / 16 ∧ win0_7.index t (1 : Fin 2) = 0)

/-! ## The blocks -/

theorem blk_x (t : Fin cfg0.N) (p : Fin 1024) (k : Fin 2048) :
    (iblk m c 0 t : Vec Ideal S1024x2048 .bf16) (ix2 p k) = X m c (ix2 (rowOf (t.val / 16) p) k) := by
  have hN : t.val < 128 := lt_of_lt_of_eq t.isLt N_0
  unfold iblk
  rw [View.read_apply]
  show V m c main_v12 _ = _
  refine Eq.trans (congrArg (V m c main_v12) (funext fun a => Fin.ext ?_)) (V_x m c (rowOf (t.val / 16) p) k)
  match a with
  | ⟨0, _⟩ => show win0_0.index t (0 : Fin 2) * 1024 + 1 * p.val = (rowOf (t.val / 16) p).val
              rw [(at0 t).1, rowOf_val (by omega)]; omega
  | ⟨1, _⟩ => show win0_0.index t (1 : Fin 2) * 2048 + 1 * k.val = k.val
              rw [(at0 t).2]; omega

theorem blk_xsq (t : Fin cfg0.N) (p : Fin 1024) :
    (iblk m c 1 t : Vec Ideal S1024x1 .f32) (ix2 p (0 : Fin 1)) = Cert.Rbf.xsq (X m c) (rowOf (t.val / 16) p) := by
  have hN : t.val < 128 := lt_of_lt_of_eq t.isLt N_0
  unfold iblk
  rw [View.read_apply]
  show V m c main_v11 _ = _
  refine Eq.trans (congrArg (V m c main_v11) (funext fun a => Fin.ext ?_)) (V_xsq m c (rowOf (t.val / 16) p))
  match a with
  | ⟨0, _⟩ => show win0_1.index t (0 : Fin 2) * 1024 + 1 * p.val = (rowOf (t.val / 16) p).val
              rw [(at1 t).1, rowOf_val (by omega)]; omega
  | ⟨1, _⟩ => show win0_1.index t (1 : Fin 2) * 1 + 1 * 0 = 0
              rw [(at1 t).2]

theorem blk_cen (t : Fin cfg0.N) (q : Fin 256) (k : Fin 2048) :
    (iblk m c 2 t : Vec Ideal S256x2048 .bf16) (ix2 q k) = Cn m c (ix2 (colOf (t.val % 16) q) k) := by
  have hN : t.val < 128 := lt_of_lt_of_eq t.isLt N_0
  unfold iblk
  rw [View.read_apply]
  show V m c main_v4 _ = _
  refine Eq.trans (congrArg (V m c main_v4) (funext fun a => Fin.ext ?_)) (V_cen m c (colOf (t.val % 16) q) k)
  match a with
  | ⟨0, _⟩ => show win0_2.index t (0 : Fin 2) * 256 + 1 * q.val = (colOf (t.val % 16) q).val
              rw [(at2 t).1, colOf_val (by omega)]; omega
  | ⟨1, _⟩ => show win0_2.index t (1 : Fin 2) * 2048 + 1 * k.val = k.val
              rw [(at2 t).2]; omega

theorem blk_csq (t : Fin cfg0.N) (q : Fin 256) :
    (iblk m c 3 t : Vec Ideal S1x256 .f32) (ix2 (0 : Fin 1) q) = Cert.Rbf.csq (Cn m c) (colOf (t.val % 16) q) := by
  have hN : t.val < 128 := lt_of_lt_of_eq t.isLt N_0
  unfold iblk
  rw [View.read_apply]
  show V m c main_v2 _ = _
  refine Eq.trans (congrArg (V m c main_v2) (funext fun a => Fin.ext ?_)) (V_csq m c (colOf (t.val % 16) q))
  match a with
  | ⟨0, _⟩ => show win0_3.index t (0 : Fin 2) * 1 + 1 * 0 = 0
              rw [(at3 t).1]
  | ⟨1, _⟩ => show win0_3.index t (1 : Fin 2) * 256 + 1 * q.val = (colOf (t.val % 16) q).val
              rw [(at3 t).2, colOf_val (by omega)]; omega

theorem blk_beta (t : Fin cfg0.N) (q : Fin 256) :
    (iblk m c 4 t : Vec Ideal S1x256 .f32) (ix2 (0 : Fin 1) q) = Bt m c (ix1 (colOf (t.val % 16) q)) := by
  have hN : t.val < 128 := lt_of_lt_of_eq t.isLt N_0
  unfold iblk
  rw [View.read_apply]
  show V m c main_v3 _ = _
  refine Eq.trans (congrArg (V m c main_v3) (funext fun a => Fin.ext ?_)) (V_beta m c (colOf (t.val % 16) q))
  match a with
  | ⟨0, _⟩ => show win0_4.index t (0 : Fin 2) * 1 + 1 * 0 = 0
              rw [(at4 t).1]
  | ⟨1, _⟩ => show win0_4.index t (1 : Fin 2) * 256 + 1 * q.val = (colOf (t.val % 16) q).val
              rw [(at4 t).2, colOf_val (by omega)]; omega

theorem blk_w (t : Fin cfg0.N) (r : Fin 1024) (q : Fin 256) :
    (iblk m c 5 t : Vec Ideal S1024x256 .bf16) (ix2 r q) = V m c main_v7 (ix2 r (colOf (t.val % 16) q)) := by
  have hN : t.val < 128 := lt_of_lt_of_eq t.isLt N_0
  unfold iblk
  rw [View.read_apply]
  show V m c main_v7 _ = _
  refine Eq.trans (congrArg (V m c main_v7) (funext fun a => Fin.ext ?_)) (rfl)
  match a with
  | ⟨0, _⟩ => show win0_5.index t (0 : Fin 2) * 1024 + 1 * r.val = r.val
              rw [(at5 t).1]; omega
  | ⟨1, _⟩ => show win0_5.index t (1 : Fin 2) * 256 + 1 * q.val = (colOf (t.val % 16) q).val
              rw [(at5 t).2, colOf_val (by omega)]; omega

theorem blk_bias (t : Fin cfg0.N) (r : Fin 1024) :
    (iblk m c 6 t : Vec Ideal S1x1024 .f32) (ix2 (0 : Fin 1) r) = V m c main_v8 (ix2 (0 : Fin 1) r) := by
  have hN : t.val < 128 := lt_of_lt_of_eq t.isLt N_0
  unfold iblk
  rw [View.read_apply]
  show V m c main_v8 _ = _
  refine Eq.trans (congrArg (V m c main_v8) (funext fun a => Fin.ext ?_)) (rfl)
  match a with
  | ⟨0, _⟩ => show win0_6.index t (0 : Fin 2) * 1 + 1 * 0 = 0
              rw [(at6 t).1]
  | ⟨1, _⟩ => show win0_6.index t (1 : Fin 2) * 1024 + 1 * r.val = r.val
              rw [(at6 t).2]; omega

end Cert.KernelIdeal.RbfBlk

end
-- ==== Proof.Fold.lean ====
/-
  The two scratch buffers after every grid point, and the output block after a row block's last tile.

  Write `A b q` for the activation of batch row `b` at center `q` (Spec.lean's `act` of the arguments) and `Wp` for
  the padded weights.  One tile's share of row `p`'s numerator is `∑_{q < 256} A(p, tile q) · Wp(r, tile q)`, of its
  total `∑_{q < 256} A(p, tile q)`.  By induction on the point, after tile `j` of row block `i` the scratch holds
  the sum of the shares of tiles `0 … j` — the first tile starts from the zero it has just stored, every later tile
  adds to what the tile before left (`scratch_eq`).  After tile 15 the output block is the quotient of the two full
  sums plus the bias (`out_block`).
-/
import proofs.«128381_j64226940944944_2_alg».proof.Proof.Pieces
import proofs.«128381_j64226940944944_2_alg».proof.Proof.Payloads
import proofs.«128381_j64226940944944_2_alg».proof.Proof.Blocks

noncomputable section

open scoped BigOperators
open Idealize.ShloMosaic Idealize.ShloMosaic.TcCoe Idealize.SL.Sem Idealize.ShloMosaic.ValueIdx

namespace Cert.KernelIdeal.RbfFold

open Cert.KernelIdeal Cert.KernelIdeal.Gen Cert.RbfLaw Cert.KernelIdeal.RbfArr Cert.KernelIdeal.RbfBlk
  Cert.KernelIdeal.RbfPay Cert.KernelIdeal.RbfValue

variable (m : (ℓ : Loc nD τ sig) → Buf (Elt Ideal) ℓ) (c : Dev nD)

/-- The activation of batch row `b` at center `q`, of the arguments as launched. -/
abbrev A (b : Fin 8192) (q : Fin 4096) : EReal := Cert.Rbf.act (X m c) (Cn m c) (Bt m c) b q
/-- The padded weights. -/
abbrev Wp (r : Fin 1024) (q : Fin 4096) : EReal := V m c main_v7 (ix2 r q)

/-- Tile `j`'s share of the numerator of row `p` of row block `i`, class `r`. -/
def tileNum (i j : ℕ) (p r : Fin 1024) : EReal := ∑ q : Fin 256, A m c (rowOf i p) (colOf j q) * Wp m c r (colOf j q)
/-- Tile `j`'s share of the row's total. -/
def tileTot (i j : ℕ) (p : Fin 1024) : EReal := ∑ q : Fin 256, A m c (rowOf i p) (colOf j q)

/-- The activation the body computes at a point is the specification's, at the point's row and center. -/
theorem tile_act (t : Fin cfg0.N) (p : Fin 1024) (q : Fin 256) :
    k0_pay5 (F := Ideal) (iblk m c 0 t) (iblk m c 1 t) (iblk m c 2 t) (iblk m c 3 t) (iblk m c 4 t) (ix2 p q)
      = A m c (rowOf (t.val / 16) p) (colOf (t.val % 16) q) := by
  refine (act_apply (iblk m c 0 t) (iblk m c 1 t) (iblk m c 2 t) (iblk m c 3 t) (iblk m c 4 t) p q).trans ?_
  rw [blk_beta m c t q, blk_xsq m c t p, blk_csq m c t q]
  simp only [blk_x m c t, blk_cen m c t]
  rfl

/-- After a row block's FIRST tile the scratch holds that tile's shares. -/
theorem first_tile (t : Fin cfg0.N) (h0 : t.val % 16 = 0) :
    (∀ p r : Fin 1024, (outsAt0 m c t.val t.isLt).2.1 (ix2 p r) = tileNum m c (t.val / 16) (t.val % 16) p r)
    ∧ (∀ p : Fin 1024, (outsAt0 m c t.val t.isLt).2.2 (ix2 p (0 : Fin 1)) = tileTot m c (t.val / 16) (t.val % 16) p) := by
  have h1 : ¬ t.val % 16 = 15 := by omega
  rw [outsAt0_A m c t h0 h1]
  dsimp only
  rw [numer_first, total_first]
  refine ⟨fun p r => ?_, fun p => ?_⟩
  · refine (numer_apply _ _ _ p r).trans ?_
    rw [zero_numer_apply, zero_add]
    exact Finset.sum_congr rfl fun q _ => by rw [tile_act m c t p q, blk_w m c t r q]
  · refine (total_apply _ _ _ _ _ _ p).trans ?_
    rw [zero_total_apply, zero_add]
    exact Finset.sum_congr rfl fun q _ => tile_act m c t p q

/-- After any LATER tile it holds what the tile before left plus this tile's shares. -/
theorem later_tile (t : Fin cfg0.N) (h0 : ¬ t.val % 16 = 0) :
    (∀ p r : Fin 1024, (outsAt0 m c t.val t.isLt).2.1 (ix2 p r)
        = (outsAt0 m c (t.val - 1) (Nat.lt_of_le_of_lt (Nat.sub_le _ _) t.isLt)).2.1 (ix2 p r)
          + tileNum m c (t.val / 16) (t.val % 16) p r)
    ∧ (∀ p : Fin 1024, (outsAt0 m c t.val t.isLt).2.2 (ix2 p (0 : Fin 1))
        = (outsAt0 m c (t.val - 1) (Nat.lt_of_le_of_lt (Nat.sub_le _ _) t.isLt)).2.2 (ix2 p (0 : Fin 1))
          + tileTot m c (t.val / 16) (t.val % 16) p) := by
  by_cases h1 : t.val % 16 = 15
  · rw [outsAt0_C m c t h0 h1]
    dsimp only
    rw [numer_last, total_last]
    refine ⟨fun p r => ?_, fun p => ?_⟩
    · refine (numer_apply _ _ _ p r).trans (congrArg (_ + ·) ?_)
      exact Finset.sum_congr rfl fun q _ => by rw [tile_act m c t p q, blk_w m c t r q]
    · refine (total_apply _ _ _ _ _ _ p).trans (congrArg (_ + ·) ?_)
      exact Finset.sum_congr rfl fun q _ => tile_act m c t p q
  · rw [outsAt0_B m c t h0 h1]
    dsimp only
    rw [numer_mid, total_mid]
    refine ⟨fun p r => ?_, fun p => ?_⟩
    · refine (numer_apply _ _ _ p r).trans (congrArg (_ + ·) ?_)
      exact Finset.sum_congr rfl fun q _ => by rw [tile_act m c t p q, blk_w m c t r q]
    · refine (total_apply _ _ _ _ _ _ p).trans (congrArg (_ + ·) ?_)
      exact Finset.sum_congr rfl fun q _ => tile_act m c t p q

/-- The numerator of row `p`, class `r` over the first `n` tiles, and the total. -/
def numAt (i n : ℕ) (p r : Fin 1024) : EReal := ∑ j ∈ Finset.range n, tileNum m c i j p r
def totAt (i n : ℕ) (p : Fin 1024) : EReal := ∑ j ∈ Finset.range n, tileTot m c i j p

theorem numAt_first (i j : ℕ) (hj : j = 0) (p r : Fin 1024) : tileNum m c i j p r = numAt m c i (j + 1) p r := by
  subst hj
  unfold numAt
  rw [Finset.sum_range_succ, Finset.range_zero, Finset.sum_empty, zero_add]

theorem totAt_first (i j : ℕ) (hj : j = 0) (p : Fin 1024) : tileTot m c i j p = totAt m c i (j + 1) p := by
  subst hj
  unfold totAt
  rw [Finset.sum_range_succ, Finset.range_zero, Finset.sum_empty, zero_add]

/-- THE FOLD: after point `n` the scratch holds the shares of tiles `0 … n % 16` of row block `n / 16`. -/
theorem scratch_eq : ∀ (n : ℕ) (h : n < cfg0.N),
    (∀ p r : Fin 1024, (outsAt0 m c n h).2.1 (ix2 p r) = numAt m c (n / 16) (n % 16 + 1) p r)
    ∧ (∀ p : Fin 1024, (outsAt0 m c n h).2.2 (ix2 p (0 : Fin 1)) = totAt m c (n / 16) (n % 16 + 1) p)
  | 0, h => by
    obtain ⟨a, b⟩ := first_tile m c ⟨0, h⟩ rfl
    exact ⟨fun p r => (a p r).trans (numAt_first m c _ _ rfl p r), fun p => (b p).trans (totAt_first m c _ _ rfl p)⟩
  | n + 1, h => by
    by_cases h0 : (n + 1) % 16 = 0
    · obtain ⟨a, b⟩ := first_tile m c ⟨n + 1, h⟩ h0
      exact ⟨fun p r => (a p r).trans (numAt_first m c _ _ h0 p r), fun p => (b p).trans (totAt_first m c _ _ h0 p)⟩
    · obtain ⟨a, b⟩ := later_tile m c ⟨n + 1, h⟩ h0
      obtain ⟨ia, ib⟩ := scratch_eq n (Nat.lt_of_succ_lt h)
      have e1 : n / 16 = (n + 1) / 16 := by omega
      have e2 : n % 16 + 1 = (n + 1) % 16 := by omega
      refine ⟨fun p r => (a p r).trans ?_, fun p => (b p).trans ?_⟩
      · show (outsAt0 m c n _).2.1 (ix2 p r) + tileNum m c ((n + 1) / 16) ((n + 1) % 16) p r
            = ∑ j ∈ Finset.range ((n + 1) % 16 + 1), tileNum m c ((n + 1) / 16) j p r
        rw [ia p r, Finset.sum_range_succ, e1, e2]
        rfl
      · show (outsAt0 m c n _).2.2 (ix2 p (0 : Fin 1)) + tileTot m c ((n + 1) / 16) ((n + 1) % 16) p
            = ∑ j ∈ Finset.range ((n + 1) % 16 + 1), tileTot m c ((n + 1) / 16) j p
        rw [ib p, Finset.sum_range_succ, e1, e2]
        rfl

/-- After a row block's LAST tile the output block is the head of the updated scratch. -/
theorem out_last (t : Fin cfg0.N) (h0 : ¬ t.val % 16 = 0) (h1 : t.val % 16 = 15) :
    (outsAt0 m c t.val t.isLt).1
      = k0_pay2 (F := Ideal) (outsAt0 m c t.val t.isLt).2.1 (outsAt0 m c t.val t.isLt).2.2 (iblk m c 6 t) := by
  rw [outsAt0_C m c t h0 h1]
  dsimp only
  rw [head_last, numer_last, total_last]

/-- So it is the quotient of the two full sums, plus the padded bias. -/
theorem out_block (t : Fin cfg0.N) (h1 : t.val % 16 = 15) (p r : Fin 1024) :
    (outsAt0 m c t.val t.isLt).1 (ix2 p r)
      = Ideal.div (numAt m c (t.val / 16) 16 p r) (totAt m c (t.val / 16) 16 p) + V m c main_v8 (ix2 (0 : Fin 1) r) := by
  have h0 : ¬ t.val % 16 = 0 := by omega
  rw [out_last m c t h0 h1]
  refine (head_apply _ _ _ p r).trans ?_
  obtain ⟨a, b⟩ := scratch_eq m c t.val t.isLt
  rw [a p r, b p, blk_bias m c t r, h1]

end Cert.KernelIdeal.RbfFold

end
-- ==== Proof.Final.lean ====
/-
  The kernel's result, as one function of the arguments.

  Row block `i`'s output block is written back once, after its last tile; the eight blocks tile the [8192, 1024] array,
  so after the run that array holds, at row `b` and padded class `r`, the quotient of the row's full numerator by
  its full total plus the padded bias (`final13`).  The host then keeps the first 1000 classes, where the padded
  weights and bias are the arguments' own; and by Spec.lean's `kernel_form` (finite inputs) that is `Cert.Rbf.out`
  of the arguments (`result_eq_out`).
-/
import proofs.«128381_j64226940944944_2_alg».proof.Proof.Fold

noncomputable section

open scoped BigOperators
open Idealize.ShloMosaic Idealize.ShloMosaic.TcCoe Idealize.SL.Sem Idealize.ShloMosaic.ValueIdx
open Idealize.ShloMosaic.Pipeline (Dat)

namespace Cert.KernelIdeal.RbfFinal

open Cert.KernelIdeal Cert.KernelIdeal.Gen Cert.RbfLaw Cert.KernelIdeal.RbfArr Cert.KernelIdeal.RbfBlk
  Cert.KernelIdeal.RbfFold

variable (m : (ℓ : Loc nD τ sig) → Buf (Elt Ideal) ℓ) (c : Dev nD)

/-- The padded head at batch row `b`, padded class `r`. -/
def g13 (b : Fin 8192) (r : Fin 1024) : EReal :=
  Ideal.div (∑ j ∈ Finset.range 16, ∑ q : Fin 256, A m c b (colOf j q) * Wp m c r (colOf j q))
    (∑ j ∈ Finset.range 16, ∑ q : Fin 256, A m c b (colOf j q)) + V m c main_v8 (ix2 (0 : Fin 1) r)

/-- The [8192, 1024] array the kernel leaves. -/
def G13 : S8192x1024.Idx → EReal := fun i => g13 m c (i 0) (i 1)

/-- What a row block's last point writes back is its block of `G13`. -/
theorem flushed_eq (t : Fin cfg0.N) (hf : (cfg0.win 7).flush t = true) :
    (dats m 0 c).flushed 7 t = ((cfg0.win 7).blk t).view.read (Elt Ideal) (G13 m c) := by
  have h1 : t.val % 16 = 15 := (flush0_7 t).mp hf
  have hN : t.val < 128 := lt_of_lt_of_eq t.isLt N_0
  show (cfg0.win 7).cut (grid0.coords t) ((dats m 0 c).after 7 t) = _
  rw [after0_7]
  funext j
  show (outsAt0 m c t.val t.isLt).1 j = G13 m c (((cfg0.win 7).blk t).view.emb j)
  have e0 : (((cfg0.win 7).blk t).view.emb j) 0 = rowOf (t.val / 16) (j 0) := Fin.ext (by
    show win0_7.index t (0 : Fin 2) * 1024 + 1 * (j 0).val = _
    have hr := rowOf_val (i := t.val / 16) (by omega) (j 0)
    rw [(at7 t).1]
    omega)
  have e1 : (((cfg0.win 7).blk t).view.emb j) 1 = j 1 := Fin.ext (by
    show win0_7.index t (1 : Fin 2) * 1024 + 1 * (j 1).val = (j 1).val
    rw [(at7 t).2]; omega)
  refine (congrArg (outsAt0 m c t.val t.isLt).1 (eq_ix2 j)).trans ?_
  refine (out_block m c t h1 (j 0) (j 1)).trans ?_
  show _ = g13 m c ((((cfg0.win 7).blk t).view.emb j) 0) ((((cfg0.win 7).blk t).view.emb j) 1)
  rw [e0, e1]
  rfl

/-- An index is in point `t`'s block iff each coordinate is in the block's range. -/
theorem mem_blk (t : Fin cfg0.N) (i : S8192x1024.Idx) :
    i ∈ ((cfg0.win 7).blk t).view.set ↔ ∀ a : Fin 2, win0_7.index t a * S1024x1024.size a ≤ (i a).val
      ∧ (i a).val < win0_7.index t a * S1024x1024.size a + S1024x1024.size a := by
  show i ∈ ((View.whole main_v13).slice (win0_7.rect t)).set ↔ _
  rw [View.set_slice_whole, Rect.mem_set_unit]
  exact Iff.rfl

/-- Every index is in the block some row block's last point writes back. -/
theorem cover (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 128 := N_0
  refine ⟨⟨16 * ((i 0).val / 1024) + 15, by rw [hN]; omega⟩, (flush0_7 _).mpr (by
    show (16 * ((i 0).val / 1024) + 15) % 16 = 15; omega), ?_⟩
  rw [mem_blk]
  intro a
  have h7 := at7 ⟨16 * ((i 0).val / 1024) + 15, by rw [hN]; omega⟩
  match a with
  | ⟨0, _⟩ =>
    show win0_7.index _ (0 : Fin 2) * 1024 ≤ (i 0).val ∧ (i 0).val < win0_7.index _ (0 : Fin 2) * 1024 + 1024
    rw [h7.1]
    show (16 * ((i 0).val / 1024) + 15) / 16 * 1024 ≤ (i 0).val ∧ (i 0).val < (16 * ((i 0).val / 1024) + 15) / 16 * 1024 + 1024
    omega
  | ⟨1, _⟩ =>
    show win0_7.index _ (1 : Fin 2) * 1024 ≤ (i 1).val ∧ (i 1).val < win0_7.index _ (1 : Fin 2) * 1024 + 1024
    rw [h7.2]; omega

/-- So the array ends as `G13`. -/
theorem final13 : (dats m 0 c).arrAt 7 cfg0.N = G13 m c :=
  (dats m 0 c).arrAt_eq_of_cover 7 (G13 m c) (flushed_eq m c) cover

/-- The result: the first 1000 classes. -/
def result : S8192x1000.Idx → EReal :=
  extractStridedSlice S8192x1000 ![0, 0] (G13 m c) slices_S8192x1024_S8192x1000_0_0

/-- The host's slice after the region reads the kernel's array. -/
theorem tail_eq : Pipeline.afterTail₀ cfgs (dats m) 0 (V0 m) [hostOps1] c main_v14 = result m c := by
  unfold Pipeline.afterTail₀
  show StableHlo.after hostOps1 _ (Proc.devRef .tc main_v14) = _
  after_results
  exact congrArg (fun x => extractStridedSlice S8192x1000 ![0, 0] x slices_S8192x1024_S8192x1000_0_0)
    ((Pipeline.withArrays_arr spec0 launch0.win.arr_inj c (V0 m c) (fun w => (dats m 0 c).arrAt w cfg0.N) 7).trans
      (final13 m c))

/-- THE RUN, READ: every weakly fair execution ends with the result array at `result` and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v14) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- With finite `x`, centers and `β`, the result is the specification's head of the arguments. -/
theorem result_eq_out (hx : ∀ j, Fin' (X m c j)) (hc : ∀ j, Fin' (Cn m c j)) (hβ : ∀ j, Fin' (Bt m c j)) :
    result m c = Cert.Rbf.out (X m c) (Cn m c) (Bt m c) (Wt m c) (Bs m c) := by
  funext i
  obtain ⟨b, k, rfl⟩ : ∃ (b : Fin 8192) (k : Fin 1000), i = ix2 b k := ⟨i 0, i 1, eq_ix2 i⟩
  have hk : k.val < 1024 := by have := k.isLt; omega
  refine (extractStridedSlice_apply _ (G13 m c) slices_S8192x1024_S8192x1000_0_0 (ix2 b k)
    (ix2 b (⟨k.val, hk⟩ : Fin 1024)) (fun a => match a with
      | ⟨0, _⟩ => by show b.val = 0 + b.val; omega
      | ⟨1, _⟩ => by show k.val = 0 + k.val; omega)).trans ?_
  show g13 m c b ⟨k.val, hk⟩ = _
  unfold g13
  simp only [Wp, V_w m c ⟨k.val, hk⟩ k.isLt, V_bias m c ⟨k.val, hk⟩ k.isLt]
  exact Cert.Rbf.kernel_form (Wt m c) (Bs m c) hx hc hβ (ix2 b k)

end Cert.KernelIdeal.RbfFinal

end
-- ==== Proof.lean ====
/-
  The certificate of a normalized radial-basis head: `out[b, k] = ∑_c (a_bc / ∑_c' a_bc') · W[k, c] + bias[k]`
  with `a_bc = exp(-β_c · √max(‖x_b‖² + ‖μ_c‖² - 2⟨x_b, μ_c⟩, 0))`.

  The reference normalizes the activations and then contracts them with the weights.  The kernel walks a grid of
  8 row blocks × 16 center tiles, accumulates the unnormalized contraction and the activations' total in two scratch
  buffers across the tiles of a row block, and divides once after the last tile; the weights and bias are padded from
  1000 to 1024 classes with zeros and the padding is cut off afterwards.  Over the extended reals the narrowing to
  bf16 is the identity and the order of a sum does not matter, so the two programs differ by ONE law: dividing a
  weighted sum by a total `d` is dividing each weight by `d`.  That law holds for `0 < d` (Law.lean), and `d` is
  positive because under the precondition every activation is the exponential of a finite number (Finite.lean,
  Spec.lean).

  The modules: Law (the algebra), Spec (the function `out` and the kernel's order of operations), RefIsOut (the
  reference is `out`), Payloads (the body's arithmetic at an index), Pieces (what each grid point stores), Arrays and
  Blocks (what the kernel is handed), Fold (the scratch after every point, by induction), Final (the result array and
  the run).  The three frames are the generated ones (the reference's is its run with the value dropped); nothing was
  rewritten by the idealization, so `preserves` is trivial.
-/
import proofs.«128381_j64226940944944_2_alg».proof.Defs
import proofs.«128381_j64226940944944_2_alg».proof.Proof.Gen.Kernel
import proofs.«128381_j64226940944944_2_alg».proof.Proof.Gen.Kernel.Skeleton
import proofs.«128381_j64226940944944_2_alg».proof.Proof.Gen.Kernel.Launch
import proofs.«128381_j64226940944944_2_alg».proof.Proof.Gen.Kernel.Points
import proofs.«128381_j64226940944944_2_alg».proof.Proof.Gen.Kernel.Frame
import proofs.«128381_j64226940944944_2_alg».proof.Proof.Gen.KernelIdeal
import proofs.«128381_j64226940944944_2_alg».proof.Proof.Gen.KernelIdeal.Skeleton
import proofs.«128381_j64226940944944_2_alg».proof.Proof.Gen.KernelIdeal.Launch
import proofs.«128381_j64226940944944_2_alg».proof.Proof.Gen.KernelIdeal.Points
import proofs.«128381_j64226940944944_2_alg».proof.Proof.Gen.KernelIdeal.Frame
import proofs.«128381_j64226940944944_2_alg».proof.Proof.Gen.ReferenceIdeal
import proofs.«128381_j64226940944944_2_alg».proof.Proof.Gen.Pre_finite_inputs
import proofs.«128381_j64226940944944_2_alg».proof.Proof.Gen.ReferenceIdeal.Run
import proofs.«128381_j64226940944944_2_alg».proof.Proof.Gen.ReferenceIdeal.Read
import proofs.«128381_j64226940944944_2_alg».proof.Proof.RefIsOut
import proofs.«128381_j64226940944944_2_alg».proof.Proof.Finite
import proofs.«128381_j64226940944944_2_alg».proof.Proof.Final
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the value dropped. -/
theorem frame_ri : Cert.frame_ReferenceIdeal := fun m ρ _ =>
  (θ_run Cert.ReferenceIdeal.defs _ _).mono (fun _ h c => (h c).2) (Cert.ReferenceIdeal.Value.run (F := Ideal) m ρ)

/-- Both runs end at `Cert.Rbf.out` of arguments that agree: the kernel's by the fold over the grid and the division
    law (which is where the precondition is used), the reference's operation by operation. -/
theorem algebraic : Cert.algebraic_KernelIdeal_ReferenceIdeal := by
  intro m ρ m' ρ' hpre hagree
  refine ⟨fun c => Cert.KernelIdeal.RbfFinal.result m c, Cert.KernelIdeal.RbfFinal.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hc, hβ⟩ := Cert.RbfFinite.finite_of_pre _ _ _ _ _ (hpre c)
  rw [Cert.ReferenceIdeal.Read.val_main_v30_eq, Cert.ReferenceIdeal.RbfRef.ref_is_out, (hagree c).1, (hagree c).2.1,
    (hagree c).2.2.1, (hagree c).2.2.2.1, (hagree c).2.2.2.2]
  exact (Cert.KernelIdeal.RbfFinal.result_eq_out m c hx hc hβ).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
